-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x128 .f32) (main_arg3 : FVec F S128 .f32) (main_arg4 : FVec F S128x1 .f32) (main_arg5 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S1700000x128 : Shape := ⟨2, ![1700000, 128]⟩
abbrev S1x128 : Shape := ⟨2, ![1, 128]⟩
abbrev S1x1 : Shape := ⟨2, ![1, 1]⟩

abbrev nBuf : Space → Nat
  | .hbm => 62
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x128, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000x128, .f32⟩
  | .hbm, ⟨37, _⟩ => ⟨S_, .f32⟩
  | .hbm, ⟨38, _⟩ => ⟨S100000x128, .f32⟩
  | .hbm, ⟨39, _⟩ => ⟨S1700000x1, .i32⟩
  | .hbm, ⟨40, _⟩ => ⟨S100000x128, .f32⟩
  | .hbm, ⟨41, _⟩ => ⟨S100000x1, .f32⟩
  | .hbm, ⟨42, _⟩ => ⟨S1x128, .f32⟩
  | .hbm, ⟨43, _⟩ => ⟨S100000x128, .f32⟩
  | .hbm, ⟨44, _⟩ => ⟨S100000x1, .f32⟩
  | .hbm, ⟨45, _⟩ => ⟨S100000x1, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x1, .f32⟩
  | .hbm, ⟨55, _⟩ => ⟨S_, .f32⟩
  | .hbm, ⟨56, _⟩ => ⟨S100000x1, .f32⟩
  | .hbm, ⟨57, _⟩ => ⟨S1700000x1, .i32⟩
  | .hbm, ⟨58, _⟩ => ⟨S100000x1, .f32⟩
  | .hbm, ⟨59, _⟩ => ⟨S100000x1, .f32⟩
  | .hbm, ⟨60, _⟩ => ⟨S1x1, .f32⟩
  | .hbm, ⟨61, _⟩ => ⟨S100000x1, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x1, .f32⟩
  | .local _ .vmem, ⟨17, _⟩ => ⟨S5000x1, .f32⟩
  | .local _ .vmem, ⟨18, _⟩ => ⟨S5000x1, .f32⟩
  | .local _ .vmem, ⟨19, _⟩ => ⟨S5000x1, .f32⟩
  | .local _ .vmem, ⟨20, _⟩ => ⟨S5000x1, .f32⟩
  | .local _ .vmem, ⟨21, _⟩ => ⟨S5000x1, .f32⟩
  | .local _ .vmem, ⟨22, _⟩ => ⟨S5000x1, .f32⟩
  | .local _ .vmem, ⟨23, _⟩ => ⟨S5000x1, .f32⟩
  | .local _ .vmem, ⟨24, _⟩ => ⟨S5000x1, .f32⟩
  | .local _ .vmem, ⟨25, _⟩ => ⟨S1x1, .f32⟩
  | .local _ .vmem, ⟨26, _⟩ => ⟨S5000x1, .f32⟩
  | .local _ .vmem, ⟨27, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  bcast_S_S100000x1 : S_.BroadcastsInDim S100000x1 (![] : Fin 0 → Fin S100000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1700000x1_S1700000_n_0_0_1_wf : ScatterDims.WF S100000 S1700000x1 S1700000 [] [0] [0] 1
  dot_S5000x64_S64x128_S5000x128_1_0_0_1_n_n_wf : DotDims.WF S5000x64 S64x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x1_S5000x1_1_0_0_1_n_n_wf : DotDims.WF S5000x128 S128x1 S5000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S128x1.size a
  hwx2_1 : ∀ i : grid2.Coords, EltTy.bits .f32 = 32 ∨ (Rect.block (s := S128x1) S128x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x1.size a ≤ S100000x1.size a
  hwx3_0 : ∀ i : grid3.Coords, EltTy.bits .f32 = 32 ∨ (Rect.block (s := S100000x1) S5000x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .f32 = 32 ∨ (Rect.block (s := S100000x1) S5000x1.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S5000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S5000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S5000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 133
  | .vmem => 0
  | .smem => 0
  | _ => 0

abbrev hbmTy0_0 (i : Nat) : BufTy := match i % 128 with
  | 0 => ⟨S100000x64, .f32⟩
  | 1 => ⟨S2x1600000, .i32⟩
  | 2 => ⟨S64x128, .f32⟩
  | 3 => ⟨S128, .f32⟩
  | 4 => ⟨S128x1, .f32⟩
  | 5 => ⟨S1, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x64, .f32⟩
  | 14 => ⟨S100000x128, .f32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S1700000x1, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x1, .f32⟩
  | 71 => ⟨S_, .f32⟩
  | 72 => ⟨S1700000, .f32⟩
  | 73 => ⟨S_, .f32⟩
  | 74 => ⟨S100000, .f32⟩
  | 75 => ⟨S1700000x1, .i32⟩
  | 76 => ⟨S100000, .f32⟩
  | 77 => ⟨S_, .f32⟩
  | 78 => ⟨S100000, .f32⟩
  | 79 => ⟨S100000, .i1⟩
  | 80 => ⟨S100000, .f32⟩
  | 81 => ⟨S_, .f32⟩
  | 82 => ⟨S_, .f32⟩
  | 83 => ⟨S100000, .f32⟩
  | 84 => ⟨S100000, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S1700000, .f32⟩
  | 104 => ⟨S1700000x1, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x1, .f32⟩
  | 114 => ⟨S1700000x1, .f32⟩
  | 115 => ⟨S_, .f32⟩
  | 116 => ⟨S100000x1, .f32⟩
  | 117 => ⟨S1700000x1, .i32⟩
  | 118 => ⟨S100000x1, .f32⟩
  | 119 => ⟨S1x1, .f32⟩
  | 120 => ⟨S100000x1, .f32⟩
  | 121 => ⟨S100000x1, .f32⟩
  | 122 => ⟨S_, .f32⟩
  | 123 => ⟨S100000x1, .f32⟩
  | 124 => ⟨S100000x1, .f32⟩
  | 125 => ⟨S100000x1, .f32⟩
  | 126 => ⟨S100000x1, .f32⟩
  | 127 => ⟨S_, .f32⟩
  | _ => ⟨S100000x64, .f32⟩

abbrev hbmTy0_1 (i : Nat) : BufTy := match i % 128 with
  | 0 => ⟨S100000x1, .f32⟩
  | 1 => ⟨S100000x1, .f32⟩
  | 2 => ⟨S_, .f32⟩
  | 3 => ⟨S100000x1, .f32⟩
  | 4 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_call2_v0 : Ref sig .tc := ⟨.hbm, 82, rfl⟩
abbrev main_call2_v1 : Ref sig .tc := ⟨.hbm, 83, rfl⟩
abbrev main_v57 : Ref sig .tc := ⟨.hbm, 84, rfl⟩
abbrev main_c_13 : Ref sig .tc := ⟨.hbm, 85, rfl⟩
abbrev main_v58 : Ref sig .tc := ⟨.hbm, 86, rfl⟩
abbrev main_v59 : Ref sig .tc := ⟨.hbm, 87, rfl⟩
abbrev main_c_14 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_15 : Ref sig .tc := ⟨.hbm, 94, rfl⟩
abbrev main_v65 : Ref sig .tc := ⟨.hbm, 95, rfl⟩
abbrev main_v66 : Ref sig .tc := ⟨.hbm, 96, rfl⟩
abbrev main_c_16 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_17 : Ref sig .tc := ⟨.hbm, 105, rfl⟩
abbrev main_v74 : Ref sig .tc := ⟨.hbm, 106, rfl⟩
abbrev main_v75 : Ref sig .tc := ⟨.hbm, 107, rfl⟩
abbrev main_c_18 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_20 : Ref sig .tc := ⟨.hbm, 127, rfl⟩
abbrev main_v91 : Ref sig .tc := ⟨.hbm, 128, rfl⟩
abbrev main_v92 : Ref sig .tc := ⟨.hbm, 129, rfl⟩
abbrev main_cst_21 : Ref sig .tc := ⟨.hbm, 130, rfl⟩
abbrev main_v93 : Ref sig .tc := ⟨.hbm, 131, rfl⟩
abbrev main_v94 : Ref sig .tc := ⟨.hbm, 132, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x64_S64x128_S100000x128_1_0_0_1_n_n_wf : DotDims.WF S100000x64 S64x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.LibScatterCol.lean ====
/-
  A count scattered into a vector and the same count scattered into a one-column matrix.

  The host's accumulating scatter adds, to each operand element, the updates whose result index is that element.
  With one scatter index per update (the index array an [E, 1] column, read signed and not clamped) there are two
  spellings of "add update e at row idx e": into an [N] vector from an [E] vector of updates (no window axis, the
  operand's only axis inserted), and into an [N, 1] matrix from an [E, 1] matrix of updates (the second axis a
  window of extent one). Update e lands on row n in either spelling exactly when the signed index word of e is n,
  so the two results agree row by row whenever the operands and the updates do.
-/
import Idealize.ShloMosaic.Lib.ValueIdx
import Idealize.ShloMosaic.Lib.Pipeline.Value
import Idealize.ShloMosaic.PureOps.Ideal.Laws

noncomputable section

namespace Cert.ScatterCol

open Idealize.ShloMosaic Idealize.ShloMosaic.ValueIdx

variable {N E : Nat}

/-- The dimension numbers of the scatter into a vector: no window axis, the operand's axis inserted. -/
abbrev dvec (h : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, h⟩
/-- The dimension numbers of the scatter into a one-column matrix: the second axis a window. -/
abbrev dcol (h : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ := ⟨[1], [0], [0], 1, h⟩

theorem start_vec (h) {w : Nat} (j : (⟨1, ![E]⟩ : Shape).Idx) (idx : IVec ⟨2, ![E, 1]⟩ w) :
    (dvec (N := N) h).start j idx 0 = (idx (ix2 (j 0) (0 : Fin 1))).toInt := by
  refine congrArg (fun z => (idx z).toInt) (funext fun b => Fin.ext ?_)
  match b with
  | ⟨0, _⟩ => rfl
  | ⟨1, _⟩ => rfl

theorem window_vec (h) (j : (⟨1, ![E]⟩ : Shape).Idx) : (dvec (N := N) h).window j 0 = 0 := rfl

theorem start_col0 (h) {w : Nat} (j : (⟨2, ![E, 1]⟩ : Shape).Idx) (idx : IVec ⟨2, ![E, 1]⟩ w) :
    (dcol (N := N) h).start j idx 0 = (idx (ix2 (j 0) (0 : Fin 1))).toInt := by
  refine congrArg (fun z => (idx z).toInt) (funext fun b => Fin.ext ?_)
  match b with
  | ⟨0, _⟩ => rfl
  | ⟨1, _⟩ => rfl

theorem start_col1 (h) {w : Nat} (j : (⟨2, ![E, 1]⟩ : Shape).Idx) (idx : IVec ⟨2, ![E, 1]⟩ w) :
    (dcol (N := N) h).start j idx 1 = 0 := rfl
theorem window_col0 (h) (j : (⟨2, ![E, 1]⟩ : Shape).Idx) : (dcol (N := N) h).window j 0 = 0 := rfl
theorem window_col1 (h) (j : (⟨2, ![E, 1]⟩ : Shape).Idx) : (dcol (N := N) h).window j 1 = (j 1).val := rfl

/-- Into the vector, update j lands on element i exactly when its signed index word is i's coordinate. -/
theorem resultIdx_vec_iff (h) {w : Nat} (j : (⟨1, ![E]⟩ : Shape).Idx) (idx : IVec ⟨2, ![E, 1]⟩ w)
    (i : (⟨1, ![N]⟩ : Shape).Idx) :
    (dvec (N := N) h).resultIdx? j idx = some i ↔ (idx (ix2 (j 0) (0 : Fin 1))).toInt = ((i 0).val : Int) := by
  have hs := start_vec (N := N) h j idx
  have hw := window_vec (N := N) h j
  have hi : (i 0).val < N := (i 0).isLt
  unfold ScatterDims.resultIdx?
  split
  · rename_i hall
    have h0 : 0 ≤ (dvec (N := N) h).start j idx 0 + ((dvec (N := N) h).window j 0 : Int)
        ∧ (dvec (N := N) h).start j idx 0 + ((dvec (N := N) h).window j 0 : Int) < (N : Int) := hall 0
    rw [hs, hw] at h0
    rw [Option.some.injEq]
    constructor
    · intro e
      have e0 : ((dvec (N := N) h).start j idx 0 + ((dvec (N := N) h).window j 0 : Int)).toNat = (i 0).val :=
        congrArg (fun f => (f 0).val) e
      rw [hs, hw] at e0
      omega
    · intro e
      funext a
      match a with
      | ⟨0, _⟩ =>
        apply Fin.ext
        show ((dvec (N := N) h).start j idx 0 + ((dvec (N := N) h).window j 0 : Int)).toNat = (i 0).val
        rw [hs, hw]; omega
  · rename_i hnot
    constructor
    · intro e; cases e
    · intro e
      exfalso; apply hnot
      intro a
      match a with
      | ⟨0, _⟩ =>
        show 0 ≤ (dvec (N := N) h).start j idx 0 + ((dvec (N := N) h).window j 0 : Int)
          ∧ (dvec (N := N) h).start j idx 0 + ((dvec (N := N) h).window j 0 : Int) < (N : Int)
        rw [hs, hw]; omega

/-- Into the one-column matrix, update j lands on element i exactly when its signed index word is i's row. -/
theorem resultIdx_col_iff (h) {w : Nat} (j : (⟨2, ![E, 1]⟩ : Shape).Idx) (idx : IVec ⟨2, ![E, 1]⟩ w)
    (i : (⟨2, ![N, 1]⟩ : Shape).Idx) :
    (dcol (N := N) h).resultIdx? j idx = some i ↔ (idx (ix2 (j 0) (0 : Fin 1))).toInt = ((i 0).val : Int) := by
  have hs0 := start_col0 (N := N) h j idx
  have hs1 := start_col1 (N := N) h j idx
  have hw0 := window_col0 (N := N) h j
  have hw1 := window_col1 (N := N) h j
  have hi : (i 0).val < N := (i 0).isLt
  have hi1 : (i 1).val < 1 := (i 1).isLt
  have hj1 : (j 1).val < 1 := (j 1).isLt
  unfold ScatterDims.resultIdx?
  split
  · rename_i hall
    have h0 : 0 ≤ (dcol (N := N) h).start j idx 0 + ((dcol (N := N) h).window j 0 : Int)
        ∧ (dcol (N := N) h).start j idx 0 + ((dcol (N := N) h).window j 0 : Int) < (N : Int) := hall 0
    rw [hs0, hw0] at h0
    rw [Option.some.injEq]
    constructor
    · intro e
      have e0 : ((dcol (N := N) h).start j idx 0 + ((dcol (N := N) h).window j 0 : Int)).toNat = (i 0).val :=
        congrArg (fun f => (f 0).val) e
      rw [hs0, hw0] at e0
      omega
    · intro e
      funext a
      match a with
      | ⟨0, _⟩ =>
        apply Fin.ext
        show ((dcol (N := N) h).start j idx 0 + ((dcol (N := N) h).window j 0 : Int)).toNat = (i 0).val
        rw [hs0, hw0]; omega
      | ⟨1, _⟩ =>
        apply Fin.ext
        show ((dcol (N := N) h).start j idx 1 + ((dcol (N := N) h).window j 1 : Int)).toNat = (i 1).val
        rw [hs1, hw1]; omega
  · rename_i hnot
    constructor
    · intro e; cases e
    · intro e
      exfalso; apply hnot
      intro a
      match a with
      | ⟨0, _⟩ =>
        show 0 ≤ (dcol (N := N) h).start j idx 0 + ((dcol (N := N) h).window j 0 : Int)
          ∧ (dcol (N := N) h).start j idx 0 + ((dcol (N := N) h).window j 0 : Int) < (N : Int)
        rw [hs0, hw0]; omega
      | ⟨1, _⟩ =>
        show 0 ≤ (dcol (N := N) h).start j idx 1 + ((dcol (N := N) h).window j 1 : Int)
          ∧ (dcol (N := N) h).start j idx 1 + ((dcol (N := N) h).window j 1 : Int) < ((1 : Nat) : Int)
        rw [hs1, hw1]; omega

/-- The [E, 1] update indices are the [E] update indices, by the first coordinate. -/
def colEquiv : (⟨2, ![E, 1]⟩ : Shape).Idx ≃ (⟨1, ![E]⟩ : Shape).Idx where
  toFun j := ix1 (j 0)
  invFun j := ix2 (j 0) (0 : Fin 1)
  left_inv j := by
    funext a
    match a with
    | ⟨0, _⟩ => rfl
    | ⟨1, _⟩ => exact Fin.ext (by have h1 : (j 1).val < 1 := (j 1).isLt; show 0 = (j 1).val; omega)
  right_inv j := by
    funext a
    match a with
    | ⟨0, _⟩ => rfl

/-- The scatter into the one-column matrix, at row n, is the scatter into the vector at n, when the operands
    agree at that row and the updates agree row by row. -/
theorem scatterAdd_col_eq_vec (hv) (hc) {w : Nat} (idx : IVec ⟨2, ![E, 1]⟩ w)
    (x1 : (⟨1, ![N]⟩ : Shape).Idx → EReal) (x2 : (⟨2, ![N, 1]⟩ : Shape).Idx → EReal)
    (u1 : (⟨1, ![E]⟩ : Shape).Idx → EReal) (u2 : (⟨2, ![E, 1]⟩ : Shape).Idx → EReal)
    (n : Fin N) (hx : x2 (ix2 n (0 : Fin 1)) = x1 (ix1 n))
    (hu : ∀ e : Fin E, u2 (ix2 e (0 : Fin 1)) = u1 (ix1 e)) :
    Ideal.hostScatterAdd (dcol (N := N) hc) x2 idx u2 (ix2 n (0 : Fin 1))
      = Ideal.hostScatterAdd (dvec (N := N) hv) x1 idx u1 (ix1 n) := by
  unfold Ideal.hostScatterAdd
  rw [hx]
  refine congrArg (x1 (ix1 n) + ·) ?_
  refine Finset.sum_equiv colEquiv (fun j => ?_) (fun j _ => ?_)
  · simp only [Finset.mem_filter, Finset.mem_univ, true_and]
    rw [resultIdx_col_iff, resultIdx_vec_iff]
    exact Iff.rfl
  · have hj : j = ix2 (j 0) (0 : Fin 1) := (colEquiv.left_inv j).symm
    rw [hj]
    exact hu (j 0)

end Cert.ScatterCol

end
-- ==== Proof.LibScatterSum.lean ====
/-
  The host's accumulating scatter, one scatter index per update row, read at an element as a sum over the rows.

  With the scatter indices an [E, 1] column (read signed, not clamped) an update row e lands on operand row n exactly
  when the signed word idx[e, 0] is n. Two spellings: [E] updates into an [N] vector, and [E, C] update rows into an
  [N, C] matrix (the second axis a window axis: update (e, k) lands on (n, k)). Either result element is the operand
  element plus the sum, over all rows e, of the update of row e when that row lands on n and of zero otherwise.
-/
import proofs.«178391_j5583457485492_1_alg».proof.Proof.LibScatterCol

noncomputable section

namespace Cert.ScatterSum

open Idealize.ShloMosaic Idealize.ShloMosaic.ValueIdx Cert.ScatterCol

variable {N C E : Nat}

/-- The dimension numbers of the scatter of rows into a matrix: the second axis a window, the first inserted. -/
abbrev dmat (h : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, h⟩

theorem start_mat0 (h) {w : Nat} (j : (⟨2, ![E, C]⟩ : Shape).Idx) (idx : IVec ⟨2, ![E, 1]⟩ w) :
    (dmat (N := N) h).start j idx 0 = (idx (ix2 (j 0) (0 : Fin 1))).toInt := by
  refine congrArg (fun z => (idx z).toInt) (funext fun b => Fin.ext ?_)
  match b with
  | ⟨0, _⟩ => rfl
  | ⟨1, _⟩ => rfl

theorem start_mat1 (h) {w : Nat} (j : (⟨2, ![E, C]⟩ : Shape).Idx) (idx : IVec ⟨2, ![E, 1]⟩ w) :
    (dmat (N := N) h).start j idx 1 = 0 := rfl
theorem window_mat0 (h) (j : (⟨2, ![E, C]⟩ : Shape).Idx) : (dmat (N := N) h).window j 0 = 0 := rfl
theorem window_mat1 (h) (j : (⟨2, ![E, C]⟩ : Shape).Idx) : (dmat (N := N) h).window j 1 = (j 1).val := rfl

/-- Into the matrix, update (e, k) lands on element (n, k') exactly when the signed index word of row e is n and
    k = k'. -/
theorem resultIdx_mat_iff (h) {w : Nat} (j : (⟨2, ![E, C]⟩ : Shape).Idx) (idx : IVec ⟨2, ![E, 1]⟩ w)
    (i : (⟨2, ![N, C]⟩ : Shape).Idx) :
    (dmat (N := N) h).resultIdx? j idx = some i
      ↔ (idx (ix2 (j 0) (0 : Fin 1))).toInt = ((i 0).val : Int) ∧ (j 1).val = (i 1).val := by
  have hs0 := start_mat0 (N := N) h j idx
  have hs1 := start_mat1 (N := N) h j idx
  have hw0 := window_mat0 (N := N) h j
  have hw1 := window_mat1 (N := N) h j
  have hi : (i 0).val < N := (i 0).isLt
  have hi1 : (i 1).val < C := (i 1).isLt
  have hj1 : (j 1).val < C := (j 1).isLt
  unfold ScatterDims.resultIdx?
  split
  · rename_i hall
    have h0 : 0 ≤ (dmat (N := N) h).start j idx 0 + ((dmat (N := N) h).window j 0 : Int)
        ∧ (dmat (N := N) h).start j idx 0 + ((dmat (N := N) h).window j 0 : Int) < (N : Int) := hall 0
    rw [hs0, hw0] at h0
    rw [Option.some.injEq]
    constructor
    · intro e
      have e0 : ((dmat (N := N) h).start j idx 0 + ((dmat (N := N) h).window j 0 : Int)).toNat = (i 0).val :=
        congrArg (fun f => (f 0).val) e
      have e1 : ((dmat (N := N) h).start j idx 1 + ((dmat (N := N) h).window j 1 : Int)).toNat = (i 1).val :=
        congrArg (fun f => (f 1).val) e
      rw [hs0, hw0] at e0
      rw [hs1, hw1] at e1
      omega
    · intro e
      funext a
      match a with
      | ⟨0, _⟩ =>
        apply Fin.ext
        show ((dmat (N := N) h).start j idx 0 + ((dmat (N := N) h).window j 0 : Int)).toNat = (i 0).val
        rw [hs0, hw0]; omega
      | ⟨1, _⟩ =>
        apply Fin.ext
        show ((dmat (N := N) h).start j idx 1 + ((dmat (N := N) h).window j 1 : Int)).toNat = (i 1).val
        rw [hs1, hw1]; omega
  · rename_i hnot
    constructor
    · intro e; cases e
    · intro e
      exfalso; apply hnot
      intro a
      match a with
      | ⟨0, _⟩ =>
        show 0 ≤ (dmat (N := N) h).start j idx 0 + ((dmat (N := N) h).window j 0 : Int)
          ∧ (dmat (N := N) h).start j idx 0 + ((dmat (N := N) h).window j 0 : Int) < (N : Int)
        rw [hs0, hw0]; omega
      | ⟨1, _⟩ =>
        show 0 ≤ (dmat (N := N) h).start j idx 1 + ((dmat (N := N) h).window j 1 : Int)
          ∧ (dmat (N := N) h).start j idx 1 + ((dmat (N := N) h).window j 1 : Int) < ((C : Nat) : Int)
        rw [hs1, hw1]; omega

/-- The host's accumulating scatter at the exact instance is the sum it denotes (by definition). -/
theorem scatterAdd_ideal {s si su : Shape} {φ : FTy} (d : ScatterDims s si su) {w : Nat} (x : FVec Ideal s φ)
    (idx : IVec si w) (u : FVec Ideal su φ) : Host.scatterAdd d x idx u = Ideal.hostScatterAdd d x idx u := rfl

/-- THE SCATTER OF ROWS READ AT (n, k): the operand there plus, over the rows e, update (e, k) when row e's signed
    index word is n. -/
theorem scatterAdd_mat_apply (h) {w : Nat} (idx : IVec ⟨2, ![E, 1]⟩ w)
    (x : (⟨2, ![N, C]⟩ : Shape).Idx → EReal) (u : (⟨2, ![E, C]⟩ : Shape).Idx → EReal) (n : Fin N) (k : Fin C) :
    Ideal.hostScatterAdd (dmat (N := N) h) x idx u (ix2 n k)
      = x (ix2 n k) + ∑ e : Fin E, if (idx (ix2 e (0 : Fin 1))).toInt = (n.val : Int) then u (ix2 e k) else 0 := by
  unfold Ideal.hostScatterAdd
  refine congrArg (x (ix2 n k) + ·) ?_
  rw [← Finset.sum_filter]
  refine Finset.sum_bij (fun j _ => j 0) (fun j hj => ?_) (fun j hj j' hj' e => ?_) (fun e he => ?_) (fun j hj => ?_)
  · have := (resultIdx_mat_iff (N := N) h j idx (ix2 n k)).mp (Finset.mem_filter.mp hj).2
    exact Finset.mem_filter.mpr ⟨Finset.mem_univ _, this.1⟩
  · have a := (resultIdx_mat_iff (N := N) h j idx (ix2 n k)).mp (Finset.mem_filter.mp hj).2
    have a' := (resultIdx_mat_iff (N := N) h j' idx (ix2 n k)).mp (Finset.mem_filter.mp hj').2
    rw [eq_ix2 j, eq_ix2 j']
    have e1 : j 1 = j' 1 := Fin.ext (a.2.trans a'.2.symm)
    have e0 : j 0 = j' 0 := e
    rw [e0, e1]
  · refine ⟨ix2 e k, Finset.mem_filter.mpr ⟨Finset.mem_univ _, ?_⟩, rfl⟩
    exact (resultIdx_mat_iff (N := N) h (ix2 e k) idx (ix2 n k)).mpr ⟨(Finset.mem_filter.mp he).2, rfl⟩
  · have a := (resultIdx_mat_iff (N := N) h j idx (ix2 n k)).mp (Finset.mem_filter.mp hj).2
    have e1 : j 1 = k := Fin.ext a.2
    exact congrArg u ((eq_ix2 j).trans (congrArg (fun z => ix2 (j 0) z) e1))

/-- THE SCATTER INTO A VECTOR READ AT n: the operand there plus, over the rows e, update e when row e's signed
    index word is n. -/
theorem scatterAdd_vec_apply (h) {w : Nat} (idx : IVec ⟨2, ![E, 1]⟩ w)
    (x : (⟨1, ![N]⟩ : Shape).Idx → EReal) (u : (⟨1, ![E]⟩ : Shape).Idx → EReal) (n : Fin N) :
    Ideal.hostScatterAdd (dvec (N := N) h) x idx u (ix1 n)
      = x (ix1 n) + ∑ e : Fin E, if (idx (ix2 e (0 : Fin 1))).toInt = (n.val : Int) then u (ix1 e) else 0 := by
  unfold Ideal.hostScatterAdd
  refine congrArg (x (ix1 n) + ·) ?_
  rw [← Finset.sum_filter]
  refine Finset.sum_bij (fun j _ => j 0) (fun j hj => ?_) (fun j hj j' hj' e => ?_) (fun e he => ?_) (fun j hj => ?_)
  · have := (resultIdx_vec_iff (N := N) h j idx (ix1 n)).mp (Finset.mem_filter.mp hj).2
    exact Finset.mem_filter.mpr ⟨Finset.mem_univ _, this⟩
  · rw [eq_ix1 j, eq_ix1 j']
    have e0 : j 0 = j' 0 := e
    rw [e0]
  · refine ⟨ix1 e, Finset.mem_filter.mpr ⟨Finset.mem_univ _, ?_⟩, rfl⟩
    exact (resultIdx_vec_iff (N := N) h (ix1 e) idx (ix1 n)).mpr (Finset.mem_filter.mp he).2
  · exact congrArg u (eq_ix1 j)

end Cert.ScatterSum

end
-- ==== Proof.LibGatherRows.lean ====
/-
  `stablehlo.gather` of whole rows of a matrix, read at an index.

  What `x[idx]` of a table `x : [N, C]` at an integer vector `idx : [E]` lowers to, the vector carried as an
  `[E, 1]` array of start indices: offset axes `[1]`, collapsed axes `[0]`, start index map `[0]`, the index vector on
  axis 1, slice sizes `[1, C]`. Result element `(e, k)` is the table's element `(r, k)`, the row `r` being the start
  word `idx[e, 0]` read as a signed integer and clamped into `[0, N - 1]`: a negative word reads row 0, a word past
  the table its last row.
-/
import Idealize.ShloMosaic.Lib.ValueIdx

noncomputable section

namespace Idealize.ShloMosaic.ValueIdx

open Idealize.ShloMosaic

section Rows
variable {α : Type}

/-- Those dimension numbers for a table `[N, C]`, start indices `[E, 1]` and a result `[E, C]`; their conditions are
    decided on a program's literal shapes. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start word names in a table of `N` rows: the word read signed, clamped into `[0, N - 1]`. -/
def clampRow (N : Nat) {w : Nat} (v : BitVec w) : Nat := min v.toInt.toNat (N - 1)

theorem clampRow_lt {N : Nat} (hN : 0 < N) {w : Nat} (v : BitVec w) : clampRow N v < N := by
  unfold clampRow; omega

/-- THE GATHER READ AT `(e, k)`: the table at row `clampRow N idx[e, 0]`, column `k`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsDims N C E wf) x idx (ix2 e k)
      = x (ix2 ⟨clampRow N (idx (ix2 e (0 : Fin 1))), clampRow_lt hN _⟩ k) := by
  unfold Host.gather
  congr 1
  funext a
  refine Fin.ext ?_
  match a with
  | ⟨0, _⟩ =>
    show (rowsDims N C E wf).start (ix2 e k) idx 0 + (rowsDims N C E wf).batchCoord (ix2 e k) 0
      + (rowsDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e k) ⟨List.idxOf (0 : Fin 2) (rowsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N C E wf).start (ix2 e k) idx 1 + (rowsDims N C E wf).batchCoord (ix2 e k) 1
      + (rowsDims N C E wf).offCoord (ix2 e k) 1 = k.val
    rw [GatherDims.batchCoord_eq_zero _ _ _ List.not_mem_nil]
    unfold GatherDims.start
    rw [dif_neg (show ¬ (1 : Fin 2) ∈ (rowsDims N C E wf).startIndexMap from
      fun h => absurd (congrArg Fin.val (List.mem_singleton.mp h)) Nat.one_ne_zero)]
    simp only [Nat.add_zero, Nat.zero_add]
    unfold GatherDims.offCoord
    rw [dif_pos (show (1 : Fin 2) ∈ (rowsDims N C E wf).sKept from (GatherDims.mem_sKept _ _).mpr
      ⟨fun h => absurd (congrArg Fin.val (List.mem_singleton.mp h)) Nat.one_ne_zero, List.not_mem_nil⟩)]
    rfl

end Rows

end Idealize.ShloMosaic.ValueIdx

end
-- ==== Proof.LibGatherVec.lean ====
/-
  `stablehlo.gather` of single entries of a vector, read at an index.

  What `x[idx]` of a vector `x : [N]` at an integer vector `idx : [E]` lowers to, the indices carried as an `[E, 1]`
  array of start indices: no offset axes, collapsed axes `[0]`, start index map `[0]`, the index vector on axis 1, slice
  sizes `[1]`. Result element `e` is the vector's element `r`, the start word `idx[e, 0]` read as a signed integer and
  clamped into `[0, N - 1]`: the rank-1 companion of the gather of whole rows of a matrix, with the same clamp.
-/
import proofs.«178391_j5583457485492_1_alg».proof.Proof.LibGatherRows

noncomputable section

namespace Idealize.ShloMosaic.ValueIdx

open Idealize.ShloMosaic

section Vec
variable {α : Type}

/-- Those dimension numbers for a vector `[N]`, start indices `[E, 1]` and a result `[E]`. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT `e`: the vector at entry `clampRow N idx[e, 0]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 ⟨clampRow N (idx (ix2 e (0 : Fin 1))), clampRow_lt hN _⟩) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Vec

end Idealize.ShloMosaic.ValueIdx

end
-- ==== Proof.GcnLaw.lean ====
/-
  The mathematics that joins the two programs, free of both.

  One graph-convolution layer aggregates, at a node n, over the edges e whose target word is n. The kernel scales a
  table row by the source's inverse root degree before the aggregation and by the target's after it; the reference
  scales each message by the product of the two before the aggregation:

      (0 + Σ_e [col e = n] · (T (row e) · d (row e))) · d n     against     0 + Σ_e [col e = n] · ((d (row e) · d (col' e)) · T (row e)).

  On the extended reals a factor moves inside a finite sum when it lies in [0, ⊤), and the inverse root degree — the
  reciprocal square root where the degree is positive, 0 elsewhere — always does, whatever the degree. An edge that
  lands on n has col' e = n (its target word is not negative and within the table), so the two sides agree term by term
  by commutativity and associativity of the product.
-/
import Idealize.ShloMosaic.PureOps.Ideal

noncomputable section

namespace Cert.GcnLaw

open Idealize.ShloMosaic

/-- A factor in [0, ⊤) moves inside a finite sum of extended reals. -/
theorem sum_mul_of_nonneg_ne_top {ι : Type} (s : Finset ι) (f : ι → EReal) {d : EReal} (h0 : 0 ≤ d) (ht : d ≠ ⊤) :
    (∑ e ∈ s, f e) * d = ∑ e ∈ s, f e * d := by
  classical
  induction s using Finset.induction_on with
  | empty => rw [Finset.sum_empty, Finset.sum_empty, zero_mul]
  | insert a s ha ih =>
    rw [Finset.sum_insert ha, Finset.sum_insert ha, EReal.right_distrib_of_nonneg_of_ne_top h0 ht, ih]

/-- The inverse root degree — the reciprocal square root where the degree is positive, the zero elsewhere — lies in
    [0, ⊤) for every extended-real degree: at ⊤ the reciprocal root is 0, at a positive real a positive real, and
    everywhere else the zero is chosen. -/
theorem inv_root_range (deg : EReal) :
    0 ≤ Scalar.select (Ideal.cmp .ogt deg 0) (Ideal.rsqrt deg) (0 : EReal)
      ∧ Scalar.select (Ideal.cmp .ogt deg 0) (Ideal.rsqrt deg) (0 : EReal) ≠ ⊤ := by
  unfold Scalar.select Ideal.cmp
  by_cases h : (0 : EReal) < deg
  · have e1 : BitVec.ofBool (decide ((0 : EReal) < deg)) = 1 := by rw [decide_eq_true h]; rfl
    dsimp only
    rw [if_pos e1]
    induction deg using EReal.rec with
    | bot => exact absurd h (not_lt_bot)
    | top => rw [Ideal.rsqrt_top]; exact ⟨le_refl _, EReal.zero_ne_top⟩
    | coe r =>
      have hr : 0 < r := by exact_mod_cast h
      rw [Ideal.rsqrt_coe, if_neg (not_lt.mpr hr.le), if_neg hr.ne']
      exact ⟨by exact_mod_cast inv_nonneg.mpr (Real.sqrt_nonneg r), EReal.coe_ne_top _⟩
  · have e0 : ¬ BitVec.ofBool (decide ((0 : EReal) < deg)) = 1 := by rw [decide_eq_false h]; decide
    dsimp only
    rw [if_neg e0]
    exact ⟨le_refl _, EReal.zero_ne_top⟩

/-- THE LAYER'S LAW. With `d` in [0, ⊤) and `dc e = d` on every edge that lands (`p e`): scaling by the source's
    factor inside and the target's outside the aggregation is scaling each message by the product inside it. -/
theorem agg_law {ι : Type} [Fintype ι] (p : ι → Prop) [DecidablePred p] (a dr dc : ι → EReal) {d : EReal}
    (h0 : 0 ≤ d) (ht : d ≠ ⊤) (hc : ∀ e, p e → dc e = d) :
    (0 + ∑ e, if p e then a e * dr e else 0) * d = 0 + ∑ e, if p e then (dr e * dc e) * a e else 0 := by
  rw [zero_add, zero_add, sum_mul_of_nonneg_ne_top _ _ h0 ht]
  refine Finset.sum_congr rfl fun e _ => ?_
  by_cases h : p e
  · rw [if_pos h, if_pos h, hc e h, mul_comm (a e) (dr e), mul_assoc, mul_comm (a e) d, ← mul_assoc]
  · rw [if_neg h, if_neg h, zero_mul]

/-- A target word that, read signed, is the row number n of a table of 100000 rows is not negative, so the test
    "negative: add the extent" leaves it as it is. -/
theorem norm_of_lands (w : BitVec 32) (n : Nat) (h : w.toInt = (n : Int)) :
    Scalar.select (IntOp.cmpi .slt w 0#32) (IntOp.addi w 100000#32) w = w := by
  unfold Scalar.select IntOp.cmpi
  have hs : w.slt 0#32 = false := by
    rw [BitVec.slt_eq_decide, h]
    exact decide_eq_false (by simp)
  dsimp only
  rw [hs]
  exact if_neg (by decide)

end Cert.GcnLaw

end
-- ==== Proof.GcnRead.lean ====
/-
  The host side of a graph-convolution layer, read at an index.

  Both programs build, from the [2, 1600000] edge array, a vector of 1700000 source words and one of target words,
  and from the targets the inverse root degree of the 100000 nodes. A layer then gathers table rows at the sources
  (a negative word first moved up by the table's extent, then clamped into the table) and adds them into the rows the
  targets name (a target word outside the table drops its update). Here those host expressions are named and read at an
  index: the kernel's aggregate of gathered rows, the reference's aggregate of rows scaled by the two gathered degree
  factors (in its two spellings: 128 columns, with the factor column broadcast along the row, and one column), and the
  inverse root degree, which lies in [0, ⊤) at every node.
-/
import proofs.«178391_j5583457485492_1_alg».proof.Proof.LibScatterSum
import proofs.«178391_j5583457485492_1_alg».proof.Proof.LibGatherVec
import proofs.«178391_j5583457485492_1_alg».proof.Proof.GcnLaw
import Idealize.ShloMosaic.Lib.Pipeline.Value
import Idealize.ShloMosaic.PureOps.Ideal.Laws

noncomputable section

namespace Cert.GcnRead

open Idealize.ShloMosaic Idealize.ShloMosaic.ValueIdx Cert.ScatterSum Cert.ScatterCol

abbrev SN : Shape := ⟨1, ![100000]⟩
abbrev SE : Shape := ⟨1, ![1700000]⟩
abbrev SE1 : Shape := ⟨2, ![1700000, 1]⟩
abbrev S0 : Shape := ⟨0, ![]⟩
abbrev SNC (C : Nat) : Shape := ⟨2, ![100000, C]⟩
abbrev SEC (C : Nat) : Shape := ⟨2, ![1700000, C]⟩

/-- "Negative: add the table's extent" on one index word. -/
def normW (w : BitVec 32) : BitVec 32 := Scalar.select (IntOp.cmpi .slt w 0#32) (IntOp.addi w 100000#32) w

/-- The row of a table of 100000 rows that an index word names: moved up if negative, then clamped. -/
def rowAt (w : BitVec 32) : Fin 100000 := ⟨clampRow 100000 (normW w), clampRow_lt (by decide) _⟩

/-- A word that, read signed, is a row number names that row. -/
theorem rowAt_of_lands (w : BitVec 32) (n : Fin 100000) (h : w.toInt = (n.val : Int)) : rowAt w = n := by
  apply Fin.ext
  show clampRow 100000 (normW w) = n.val
  unfold normW
  rw [GcnLaw.norm_of_lands w n.val h]
  unfold clampRow
  rw [h]
  have := n.isLt
  omega

section Edges
variable (hsl0 : (⟨2, ![2, 1600000]⟩ : Shape).Slices ![0, 0] ⟨2, ![1, 1600000]⟩)
  (hsl1 : (⟨2, ![2, 1600000]⟩ : Shape).Slices ![1, 0] ⟨2, ![1, 1600000]⟩)
  (hsc : (⟨2, ![1, 1600000]⟩ : Shape).ShapeCasts ⟨1, ![1600000]⟩)
  (hcc : Shape.Concatenates [(⟨1, ![1600000]⟩ : Shape), SN] SE 0)

/-- The source words: row 0 of the edge array, then the self loops 0 … 99999. -/
def rowT (a1 : IVec ⟨2, ![2, 1600000]⟩ 32) : IVec SE 32 :=
  concatenate SE 0 [⟨⟨1, ![1600000]⟩, shapeCast ⟨1, ![1600000]⟩ (extractStridedSlice ⟨2, ![1, 1600000]⟩ ![0, 0] a1 hsl0) hsc⟩,
    ⟨SN, iotaInDim SN 32 0⟩] hcc

/-- The target words: row 1 of the edge array, then the self loops 0 … 99999. -/
def colT (a1 : IVec ⟨2, ![2, 1600000]⟩ 32) : IVec SE 32 :=
  concatenate SE 0 [⟨⟨1, ![1600000]⟩, shapeCast ⟨1, ![1600000]⟩ (extractStridedSlice ⟨2, ![1, 1600000]⟩ ![1, 0] a1 hsl1) hsc⟩,
    ⟨SN, iotaInDim SN 32 0⟩] hcc

end Edges

section Columns
variable (hb : SE.BroadcastsInDim SE1 (![0] : Fin 1 → Fin 2)) (hb0 : S0.BroadcastsInDim SE (![] : Fin 0 → Fin 1))

/-- A vector of 1700000 entries as an [1700000, 1] column. -/
def colOf {α : Type} (v : SE.Idx → α) : SE1.Idx → α := broadcastInDim SE1 ![0] hb v

theorem colOf_apply {α : Type} (v : SE.Idx → α) (e : Fin 1700000) (u : Fin 1) : colOf hb v (ix2 e u) = v (ix1 e) :=
  broadcastInDim_apply _ hb v (ix2 e u) (ix1 e) (fun a => match a with
    | ⟨0, _⟩ => by show e.val = if (1700000 : Nat) = 1 then 0 else e.val; rw [if_neg (by decide)])

/-- The sign-normalized words of an index vector. -/
def normOf (v : IVec SE 32) : IVec SE 32 :=
  select (cmpi .slt v (broadcastInDim SE ![] hb0 (constantI S0 32 0#32)))
    (addi v (broadcastInDim SE ![] hb0 (constantI S0 32 100000#32))) v

theorem normOf_apply (v : IVec SE 32) (e : Fin 1700000) : normOf hb0 v (ix1 e) = normW (v (ix1 e)) := rfl

end Columns

/-- The zero array and the array of ones of a shape. -/
def zeros (s : Shape) (hz : S0.BroadcastsInDim s (![] : Fin 0 → Fin s.rank)) : FVec Ideal s .f32 :=
  broadcastInDim s ![] hz (constant S0 .f32 0x00000000#32)
def ones (s : Shape) (hz : S0.BroadcastsInDim s (![] : Fin 0 → Fin s.rank)) : FVec Ideal s .f32 :=
  broadcastInDim s ![] hz (constant S0 .f32 0x3F800000#32)

theorem zeros_apply (s : Shape) (hz) (i : s.Idx) : zeros s hz i = 0 :=
  (broadcastInDim_apply _ hz (constant (F := Ideal) S0 .f32 0x00000000#32) i (fun a => a.elim0) (fun a => a.elim0)).trans
    Ideal.ofBits_zero_f32

/-- Where an array `Z` is zero, "the reciprocal square root of `D` where `D` exceeds `Z`, else `Z`" lies in [0, ⊤). -/
theorem select_range (D Z : FVec Ideal SN .f32) (n : Fin 100000) (hZ : Z (ix1 n) = 0) :
    0 ≤ select (cmpf .ogt D Z) (Host.rsqrt D) Z (ix1 n) ∧ select (cmpf .ogt D Z) (Host.rsqrt D) Z (ix1 n) ≠ ⊤ := by
  show 0 ≤ Scalar.select (Ideal.cmp .ogt (D (ix1 n)) (Z (ix1 n))) (Ideal.rsqrt (D (ix1 n))) (Z (ix1 n))
    ∧ Scalar.select (Ideal.cmp .ogt (D (ix1 n)) (Z (ix1 n))) (Ideal.rsqrt (D (ix1 n))) (Z (ix1 n)) ≠ ⊤
  rw [hZ]
  exact GcnLaw.inv_root_range _

section Degree
variable (hsv : ScatterDims.WF SN SE1 SE [] [0] [0] 1)
  (hzN : S0.BroadcastsInDim SN (![] : Fin 0 → Fin 1)) (hoE : S0.BroadcastsInDim SE (![] : Fin 0 → Fin 1))
  (hb : SE.BroadcastsInDim SE1 (![0] : Fin 1 → Fin 2))

/-- The degree: one added per edge into its target's entry. -/
def degOf (col : IVec SE 32) : FVec Ideal SN .f32 :=
  Host.scatterAdd (dvec hsv) (zeros SN hzN) (colOf hb col) (ones SE hoE)

/-- The inverse root degree: the reciprocal square root where the degree is positive, the zero elsewhere. -/
def dinvOf (col : IVec SE 32) : FVec Ideal SN .f32 :=
  select (cmpf .ogt (degOf hsv hzN hoE hb col) (zeros SN hzN)) (Host.rsqrt (degOf hsv hzN hoE hb col)) (zeros SN hzN)

/-- It lies in [0, ⊤) at every node. -/
theorem dinvOf_range (col : IVec SE 32) (n : Fin 100000) :
    0 ≤ dinvOf hsv hzN hoE hb col (ix1 n) ∧ dinvOf hsv hzN hoE hb col (ix1 n) ≠ ⊤ :=
  select_range _ _ n (zeros_apply _ _ _)

end Degree

section Aggregates
variable {C : Nat}
  (hs : ScatterDims.WF (SNC C) SE1 (SEC C) [1] [0] [0] 1)
  (hg : GatherDims.WF (SNC C) SE1 (SEC C) [1] [0] [] [0] [] 1 ![1, C])
  (hz : S0.BroadcastsInDim (SNC C) (![] : Fin 0 → Fin 2))
  (hb : SE.BroadcastsInDim SE1 (![0] : Fin 1 → Fin 2)) (hb0 : S0.BroadcastsInDim SE (![] : Fin 0 → Fin 1))
  (hv : GatherDims.WF SN SE1 SE [] [0] [] [0] [] 1 ![1])

/-- The table's rows gathered at the sources. -/
def rowsAt (row : IVec SE 32) (tbl : FVec Ideal (SNC C) .f32) : FVec Ideal (SEC C) .f32 :=
  Host.gather (rowsDims 100000 C 1700000 hg) tbl (colOf hb (normOf hb0 row))

theorem rowsAt_apply (row : IVec SE 32) (tbl : FVec Ideal (SNC C) .f32) (e : Fin 1700000) (k : Fin C) :
    rowsAt hg hb hb0 row tbl (ix2 e k) = tbl (ix2 (rowAt (row (ix1 e))) k) := by
  unfold rowsAt
  rw [gather_rows_apply (by decide)]
  refine congrArg (fun r => tbl (ix2 r k)) (Fin.ext ?_)
  show clampRow 100000 (colOf hb (normOf hb0 row) (ix2 e (0 : Fin 1))) = clampRow 100000 (normW (row (ix1 e)))
  rw [colOf_apply, normOf_apply]

/-- THE KERNEL'S AGGREGATE: the gathered rows added into the rows the targets name. -/
def aggK (col row : IVec SE 32) (tbl : FVec Ideal (SNC C) .f32) : FVec Ideal (SNC C) .f32 :=
  Host.scatterAdd (dmat hs) (zeros (SNC C) hz) (colOf hb col) (rowsAt hg hb hb0 row tbl)

theorem aggK_apply (col row : IVec SE 32) (tbl : FVec Ideal (SNC C) .f32) (n : Fin 100000) (k : Fin C) :
    aggK hs hg hz hb hb0 col row tbl (ix2 n k)
      = 0 + ∑ e : Fin 1700000, if (col (ix1 e)).toInt = (n.val : Int) then tbl (ix2 (rowAt (row (ix1 e))) k) else 0 := by
  unfold aggK
  rw [scatterAdd_ideal, scatterAdd_mat_apply, zeros_apply]
  refine congrArg (0 + ·) (Finset.sum_congr rfl fun e _ => ?_)
  rw [colOf_apply, rowsAt_apply]

/-- The product of the two gathered degree factors of an edge. -/
def normE (d : FVec Ideal SN .f32) (col row : IVec SE 32) : FVec Ideal SE .f32 :=
  mulf (Host.gather (vecDims 100000 1700000 hv) d (colOf hb (normOf hb0 row)))
    (Host.gather (vecDims 100000 1700000 hv) d (colOf hb (normOf hb0 col)))

theorem normE_apply (d : FVec Ideal SN .f32) (col row : IVec SE 32) (e : Fin 1700000) :
    normE hb hb0 hv d col row (ix1 e) = d (ix1 (rowAt (row (ix1 e)))) * d (ix1 (rowAt (col (ix1 e)))) := by
  show Host.gather (vecDims 100000 1700000 hv) d (colOf hb (normOf hb0 row)) (ix1 e)
      * Host.gather (vecDims 100000 1700000 hv) d (colOf hb (normOf hb0 col)) (ix1 e) = _
  rw [gather_vec_apply (by decide), gather_vec_apply (by decide), colOf_apply, colOf_apply, normOf_apply, normOf_apply]
  rfl

/-- An [E, 1] column repeated along C columns reads, at (e, k), the column's entry of row e. -/
theorem bcastCols_apply {α : Type} {C : Nat} (hbb : SE1.BroadcastsInDim (SEC C) (![0, 1] : Fin 2 → Fin 2)) (x : SE1.Idx → α)
    (e : Fin 1700000) (k : Fin C) : broadcastInDim (SEC C) ![0, 1] hbb x (ix2 e k) = x (ix2 e (0 : Fin 1)) :=
  broadcastInDim_apply _ hbb x (ix2 e k) (ix2 e (0 : Fin 1)) (fun a => match a with
    | ⟨0, _⟩ => by show e.val = if (1700000 : Nat) = 1 then 0 else e.val; rw [if_neg (by decide)]
    | ⟨1, _⟩ => by show (0 : Nat) = if (1 : Nat) = 1 then 0 else k.val; rw [if_pos rfl])

/-- THE REFERENCE'S AGGREGATE, 128 columns: each gathered row scaled by the product of its edge's two degree factors
    (the factor column repeated along the row), added into the rows the targets name. -/
def aggR128 (hs : ScatterDims.WF (SNC 128) SE1 (SEC 128) [1] [0] [0] 1)
    (hg : GatherDims.WF (SNC 128) SE1 (SEC 128) [1] [0] [] [0] [] 1 ![1, 128])
    (hz : S0.BroadcastsInDim (SNC 128) (![] : Fin 0 → Fin 2))
    (hbb : SE1.BroadcastsInDim (SEC 128) (![0, 1] : Fin 2 → Fin 2))
    (d : FVec Ideal SN .f32) (col row : IVec SE 32) (tbl : FVec Ideal (SNC 128) .f32) : FVec Ideal (SNC 128) .f32 :=
  Host.scatterAdd (dmat hs) (zeros (SNC 128) hz) (colOf hb col)
    (mulf (broadcastInDim (SEC 128) ![0, 1] hbb (colOf hb (normE hb hb0 hv d col row))) (rowsAt hg hb hb0 row tbl))

theorem aggR128_apply (hs hg hz hbb) (d : FVec Ideal SN .f32) (col row : IVec SE 32) (tbl : FVec Ideal (SNC 128) .f32)
    (n : Fin 100000) (k : Fin 128) :
    aggR128 hb hb0 hv hs hg hz hbb d col row tbl (ix2 n k)
      = 0 + ∑ e : Fin 1700000, if (col (ix1 e)).toInt = (n.val : Int)
          then (d (ix1 (rowAt (row (ix1 e)))) * d (ix1 (rowAt (col (ix1 e))))) * tbl (ix2 (rowAt (row (ix1 e))) k) else 0 := by
  unfold aggR128
  rw [scatterAdd_ideal, scatterAdd_mat_apply, zeros_apply]
  refine congrArg (0 + ·) (Finset.sum_congr rfl fun e _ => ?_)
  rw [colOf_apply]
  show (if _ then broadcastInDim (SEC 128) ![0, 1] hbb (colOf hb (normE hb hb0 hv d col row)) (ix2 e k)
      * rowsAt hg hb hb0 row tbl (ix2 e k) else 0) = _
  rw [bcastCols_apply, colOf_apply, normE_apply, rowsAt_apply]

/-- THE REFERENCE'S AGGREGATE, one column: the same with the factor column itself. -/
def aggR1 (hs : ScatterDims.WF (SNC 1) SE1 (SEC 1) [1] [0] [0] 1)
    (hg : GatherDims.WF (SNC 1) SE1 (SEC 1) [1] [0] [] [0] [] 1 ![1, 1])
    (hz : S0.BroadcastsInDim (SNC 1) (![] : Fin 0 → Fin 2))
    (d : FVec Ideal SN .f32) (col row : IVec SE 32) (tbl : FVec Ideal (SNC 1) .f32) : FVec Ideal (SNC 1) .f32 :=
  Host.scatterAdd (dmat hs) (zeros (SNC 1) hz) (colOf hb col)
    (mulf (colOf hb (normE hb hb0 hv d col row)) (rowsAt hg hb hb0 row tbl))

theorem aggR1_apply (hs hg hz) (d : FVec Ideal SN .f32) (col row : IVec SE 32) (tbl : FVec Ideal (SNC 1) .f32)
    (n : Fin 100000) (k : Fin 1) :
    aggR1 hb hb0 hv hs hg hz d col row tbl (ix2 n k)
      = 0 + ∑ e : Fin 1700000, if (col (ix1 e)).toInt = (n.val : Int)
          then (d (ix1 (rowAt (row (ix1 e)))) * d (ix1 (rowAt (col (ix1 e))))) * tbl (ix2 (rowAt (row (ix1 e))) k) else 0 := by
  unfold aggR1
  rw [scatterAdd_ideal, scatterAdd_mat_apply, zeros_apply]
  refine congrArg (0 + ·) (Finset.sum_congr rfl fun e _ => ?_)
  rw [colOf_apply]
  show (if _ then colOf hb (normE hb hb0 hv d col row) (ix2 e k) * rowsAt hg hb hb0 row tbl (ix2 e k) else 0) = _
  rw [colOf_apply, normE_apply, rowsAt_apply]

end Aggregates

section Bias
variable {C : Nat}

/-- A bias vector as the reference adds it: a [1, C] row, repeated along the 100000 rows. -/
def biasR (h1 : (⟨1, ![C]⟩ : Shape).BroadcastsInDim ⟨2, ![1, C]⟩ (![1] : Fin 1 → Fin 2))
    (h2 : (⟨2, ![1, C]⟩ : Shape).BroadcastsInDim (SNC C) (![0, 1] : Fin 2 → Fin 2)) (b : FVec Ideal ⟨1, ![C]⟩ .f32) : FVec Ideal (SNC C) .f32 :=
  broadcastInDim (SNC C) ![0, 1] h2 (broadcastInDim ⟨2, ![1, C]⟩ ![1] h1 b)

theorem biasR_apply (h1 h2) (b : FVec Ideal ⟨1, ![C]⟩ .f32) (n : Fin 100000) (k : Fin C) : biasR h1 h2 b (ix2 n k) = b (ix1 k) := by
  unfold biasR
  rw [broadcastInDim_apply _ h2 _ (ix2 n k) (ix2 (0 : Fin 1) k) (fun a => match a with
    | ⟨0, _⟩ => by show (0 : Nat) = if (1 : Nat) = 1 then 0 else n.val; rw [if_pos rfl]
    | ⟨1, _⟩ => by
      show k.val = if C = 1 then 0 else k.val
      split
      · have := k.isLt; omega
      · rfl)]
  exact broadcastInDim_apply _ h1 b (ix2 (0 : Fin 1) k) (ix1 k) (fun a => match a with
    | ⟨0, _⟩ => by
      show k.val = if C = 1 then 0 else k.val
      split
      · have := k.isLt; omega
      · rfl)

end Bias

end Cert.GcnRead

end
-- ==== Proof.KernelStretch.lean ====
/-
  The idealized kernel's stretches of host operations, each read from arbitrary contents.

  Between its four regions @main computes, on the host: the source and target words of the edges and the inverse root
  degree (before the first region); the first layer's aggregate of gathered rows and the column / row forms of the
  degree factor and the bias (before the second); the degree column again (before the third); the second layer's
  aggregate and the same forms (before the fourth). Each buffer a later region or stretch reads is stated here as a
  function of the buffers the stretch itself reads, for ANY contents the stretch starts from; a buffer the stretch does
  not write keeps its contents.
-/
import proofs.«178391_j5583457485492_1_alg».proof.Proof.Gen.KernelIdeal.Frame
import proofs.«178391_j5583457485492_1_alg».proof.Proof.GcnRead

set_option maxRecDepth 16384

noncomputable section

namespace Cert.KernelIdeal.Stretch

open Cert.KernelIdeal Cert.KernelIdeal.Gen Cert.GcnRead
open Idealize.ShloMosaic Idealize.ShloMosaic.TcCoe Idealize.SL.Sem Idealize.ShloMosaic.StableHlo

/-! ## Before the first region: the edges' words and the inverse root degree -/

theorem s0_v3 (W : Valuation τ sig (Elt Ideal)) :
    after (hostOps0 (F := Ideal)) W (Proc.devRef .tc main_v3)
      = rowT slices_S2x1600000_S1x1600000_0_0 shapeCasts_S1x1600000_S1600000 concatenates_S1600000_S100000_S1700000_d0 (W (Proc.devRef .tc main_arg1)) := by
  dsimp only [hostOps0]; after_results; rfl

theorem s0_v6 (W : Valuation τ sig (Elt Ideal)) :
    after (hostOps0 (F := Ideal)) W (Proc.devRef .tc main_v6)
      = colT slices_S2x1600000_S1x1600000_1_0 shapeCasts_S1x1600000_S1600000 concatenates_S1600000_S100000_S1700000_d0 (W (Proc.devRef .tc main_arg1)) := by
  dsimp only [hostOps0]; after_results; rfl

/-- The degree of the nodes, from the edge array. -/
abbrev degK (a1 : IVec S2x1600000 32) : FVec Ideal S100000 .f32 :=
  degOf scatter_S100000_S1700000x1_S1700000_n_0_0_1_wf bcast_S_S100000 bcast_S_S1700000 bcast_S1700000_S1700000x1_0
    (colT slices_S2x1600000_S1x1600000_1_0 shapeCasts_S1x1600000_S1600000 concatenates_S1600000_S100000_S1700000_d0 a1)

theorem s0_v12 (W : Valuation τ sig (Elt Ideal)) :
    after (hostOps0 (F := Ideal)) W (Proc.devRef .tc main_v12)
      = cmpf .ogt (degK (W (Proc.devRef .tc main_arg1))) (zeros SN bcast_S_S100000) := by
  dsimp only [hostOps0]; after_results; rfl

theorem s0_v13 (W : Valuation τ sig (Elt Ideal)) :
    after (hostOps0 (F := Ideal)) W (Proc.devRef .tc main_v13) = Host.rsqrt (degK (W (Proc.devRef .tc main_arg1))) := by
  dsimp only [hostOps0]; after_results; rfl

theorem s0_cst2 (W : Valuation τ sig (Elt Ideal)) :
    after (hostOps0 (F := Ideal)) W (Proc.devRef .tc main_cst_2) = constant (F := Ideal) S_ .f32 0x00000000#32 := by
  dsimp only [hostOps0]; after_results

theorem s0_keep_arg0 (W : Valuation τ sig (Elt Ideal)) :
    after (hostOps0 (F := Ideal)) W (Proc.devRef .tc main_arg0) = W (Proc.devRef .tc main_arg0) := by
  dsimp only [hostOps0]; after_results

theorem s0_keep_arg2 (W : Valuation τ sig (Elt Ideal)) :
    after (hostOps0 (F := Ideal)) W (Proc.devRef .tc main_arg2) = W (Proc.devRef .tc main_arg2) := by
  dsimp only [hostOps0]; after_results

theorem s0_keep_arg3 (W : Valuation τ sig (Elt Ideal)) :
    after (hostOps0 (F := Ideal)) W (Proc.devRef .tc main_arg3) = W (Proc.devRef .tc main_arg3) := by
  dsimp only [hostOps0]; after_results

theorem s0_keep_arg4 (W : Valuation τ sig (Elt Ideal)) :
    after (hostOps0 (F := Ideal)) W (Proc.devRef .tc main_arg4) = W (Proc.devRef .tc main_arg4) := by
  dsimp only [hostOps0]; after_results

theorem s0_keep_arg5 (W : Valuation τ sig (Elt Ideal)) :
    after (hostOps0 (F := Ideal)) W (Proc.devRef .tc main_arg5) = W (Proc.devRef .tc main_arg5) := by
  dsimp only [hostOps0]; after_results

/-- The outlined select: the reciprocal root where the comparison holds, the broadcast zero elsewhere. -/
theorem s01_v14 (W : Valuation τ sig (Elt Ideal)) :
    after (hostOps0_1 (F := Ideal)) W (Proc.devRef .tc main_v14)
      = select (W (Proc.devRef .tc main_v12)) (W (Proc.devRef .tc main_v13))
          (broadcastInDim S100000 ![] bcast_S_S100000 (W (Proc.devRef .tc main_cst_2))) := by
  dsimp only [hostOps0_1]; after_results; rfl

theorem s01_keep_arg0 (W : Valuation τ sig (Elt Ideal)) :
    after (hostOps0_1 (F := Ideal)) W (Proc.devRef .tc main_arg0) = W (Proc.devRef .tc main_arg0) := by
  dsimp only [hostOps0_1]; after_results

theorem s01_keep_arg2 (W : Valuation τ sig (Elt Ideal)) :
    after (hostOps0_1 (F := Ideal)) W (Proc.devRef .tc main_arg2) = W (Proc.devRef .tc main_arg2) := by
  dsimp only [hostOps0_1]; after_results

theorem s01_keep_arg3 (W : Valuation τ sig (Elt Ideal)) :
    after (hostOps0_1 (F := Ideal)) W (Proc.devRef .tc main_arg3) = W (Proc.devRef .tc main_arg3) := by
  dsimp only [hostOps0_1]; after_results

theorem s01_keep_arg4 (W : Valuation τ sig (Elt Ideal)) :
    after (hostOps0_1 (F := Ideal)) W (Proc.devRef .tc main_arg4) = W (Proc.devRef .tc main_arg4) := by
  dsimp only [hostOps0_1]; after_results

theorem s01_keep_arg5 (W : Valuation τ sig (Elt Ideal)) :
    after (hostOps0_1 (F := Ideal)) W (Proc.devRef .tc main_arg5) = W (Proc.devRef .tc main_arg5) := by
  dsimp only [hostOps0_1]; after_results

theorem s01_keep_v3 (W : Valuation τ sig (Elt Ideal)) :
    after (hostOps0_1 (F := Ideal)) W (Proc.devRef .tc main_v3) = W (Proc.devRef .tc main_v3) := by
  dsimp only [hostOps0_1]; after_results

theorem s01_keep_v6 (W : Valuation τ sig (Elt Ideal)) :
    after (hostOps0_1 (F := Ideal)) W (Proc.devRef .tc main_v6) = W (Proc.devRef .tc main_v6) := by
  dsimp only [hostOps0_1]; after_results

theorem s02_v15 (W : Valuation τ sig (Elt Ideal)) :
    after (hostOps0_2 (F := Ideal)) W (Proc.devRef .tc main_v15)
      = shapeCast S100000x1 (W (Proc.devRef .tc main_v14)) shapeCasts_S100000_S100000x1 := by
  dsimp only [hostOps0_2]; after_results; rfl

theorem s02_keep_arg0 (W : Valuation τ sig (Elt Ideal)) :
    after (hostOps0_2 (F := Ideal)) W (Proc.devRef .tc main_arg0) = W (Proc.devRef .tc main_arg0) := by
  dsimp only [hostOps0_2]; after_results

theorem s02_keep_arg2 (W : Valuation τ sig (Elt Ideal)) :
    after (hostOps0_2 (F := Ideal)) W (Proc.devRef .tc main_arg2) = W (Proc.devRef .tc main_arg2) := by
  dsimp only [hostOps0_2]; after_results

theorem s02_keep_arg3 (W : Valuation τ sig (Elt Ideal)) :
    after (hostOps0_2 (F := Ideal)) W (Proc.devRef .tc main_arg3) = W (Proc.devRef .tc main_arg3) := by
  dsimp only [hostOps0_2]; after_results

theorem s02_keep_arg4 (W : Valuation τ sig (Elt Ideal)) :
    after (hostOps0_2 (F := Ideal)) W (Proc.devRef .tc main_arg4) = W (Proc.devRef .tc main_arg4) := by
  dsimp only [hostOps0_2]; after_results

theorem s02_keep_arg5 (W : Valuation τ sig (Elt Ideal)) :
    after (hostOps0_2 (F := Ideal)) W (Proc.devRef .tc main_arg5) = W (Proc.devRef .tc main_arg5) := by
  dsimp only [hostOps0_2]; after_results

theorem s02_keep_v3 (W : Valuation τ sig (Elt Ideal)) :
    after (hostOps0_2 (F := Ideal)) W (Proc.devRef .tc main_v3) = W (Proc.devRef .tc main_v3) := by
  dsimp only [hostOps0_2]; after_results

theorem s02_keep_v6 (W : Valuation τ sig (Elt Ideal)) :
    after (hostOps0_2 (F := Ideal)) W (Proc.devRef .tc main_v6) = W (Proc.devRef .tc main_v6) := by
  dsimp only [hostOps0_2]; after_results

theorem s02_keep_v14 (W : Valuation τ sig (Elt Ideal)) :
    after (hostOps0_2 (F := Ideal)) W (Proc.devRef .tc main_v14) = W (Proc.devRef .tc main_v14) := by
  dsimp only [hostOps0_2]; after_results

/-! ## Before the second region -/

theorem s1_v26 (W : Valuation τ sig (Elt Ideal)) :
    after (hostOps1 (F := Ideal)) W (Proc.devRef .tc main_v26)
      = aggK (C := 128) scatter_S100000x128_S1700000x1_S1700000x128_1_0_0_1_wf gather_S100000x128_S1700000x1_S1700000x128_1_0_n_n_0_1_1128_wf
          bcast_S_S100000x128 bcast_S1700000_S1700000x1_0 bcast_S_S1700000
          (W (Proc.devRef .tc main_v6)) (W (Proc.devRef .tc main_v3)) (W (Proc.devRef .tc main_v16)) := by
  dsimp only [hostOps1]; after_results; rfl

theorem s1_v27 (W : Valuation τ sig (Elt Ideal)) :
    after (hostOps1 (F := Ideal)) W (Proc.devRef .tc main_v27)
      = shapeCast S100000x1 (W (Proc.devRef .tc main_v14)) shapeCasts_S100000_S100000x1 := by
  dsimp only [hostOps1]; after_results; rfl

theorem s1_v28 (W : Valuation τ sig (Elt Ideal)) :
    after (hostOps1 (F := Ideal)) W (Proc.devRef .tc main_v28)
      = shapeCast S1x128 (W (Proc.devRef .tc main_arg3)) shapeCasts_S128_S1x128 := by
  dsimp only [hostOps1]; after_results; rfl

theorem s1_keep_arg4 (W : Valuation τ sig (Elt Ideal)) :
    after (hostOps1 (F := Ideal)) W (Proc.devRef .tc main_arg4) = W (Proc.devRef .tc main_arg4) := by
  dsimp only [hostOps1]; after_results

theorem s1_keep_arg5 (W : Valuation τ sig (Elt Ideal)) :
    after (hostOps1 (F := Ideal)) W (Proc.devRef .tc main_arg5) = W (Proc.devRef .tc main_arg5) := by
  dsimp only [hostOps1]; after_results

theorem s1_keep_v3 (W : Valuation τ sig (Elt Ideal)) :
    after (hostOps1 (F := Ideal)) W (Proc.devRef .tc main_v3) = W (Proc.devRef .tc main_v3) := by
  dsimp only [hostOps1]; after_results

theorem s1_keep_v6 (W : Valuation τ sig (Elt Ideal)) :
    after (hostOps1 (F := Ideal)) W (Proc.devRef .tc main_v6) = W (Proc.devRef .tc main_v6) := by
  dsimp only [hostOps1]; after_results

theorem s1_keep_v14 (W : Valuation τ sig (Elt Ideal)) :
    after (hostOps1 (F := Ideal)) W (Proc.devRef .tc main_v14) = W (Proc.devRef .tc main_v14) := by
  dsimp only [hostOps1]; after_results

/-! ## Before the third region -/

theorem s2_v30 (W : Valuation τ sig (Elt Ideal)) :
    after (hostOps2 (F := Ideal)) W (Proc.devRef .tc main_v30)
      = shapeCast S100000x1 (W (Proc.devRef .tc main_v14)) shapeCasts_S100000_S100000x1 := by
  dsimp only [hostOps2]; after_results; rfl

theorem s2_keep_v29 (W : Valuation τ sig (Elt Ideal)) :
    after (hostOps2 (F := Ideal)) W (Proc.devRef .tc main_v29) = W (Proc.devRef .tc main_v29) := by
  dsimp only [hostOps2]; after_results

theorem s2_keep_arg4 (W : Valuation τ sig (Elt Ideal)) :
    after (hostOps2 (F := Ideal)) W (Proc.devRef .tc main_arg4) = W (Proc.devRef .tc main_arg4) := by
  dsimp only [hostOps2]; after_results

theorem s2_keep_arg5 (W : Valuation τ sig (Elt Ideal)) :
    after (hostOps2 (F := Ideal)) W (Proc.devRef .tc main_arg5) = W (Proc.devRef .tc main_arg5) := by
  dsimp only [hostOps2]; after_results

theorem s2_keep_v3 (W : Valuation τ sig (Elt Ideal)) :
    after (hostOps2 (F := Ideal)) W (Proc.devRef .tc main_v3) = W (Proc.devRef .tc main_v3) := by
  dsimp only [hostOps2]; after_results

theorem s2_keep_v6 (W : Valuation τ sig (Elt Ideal)) :
    after (hostOps2 (F := Ideal)) W (Proc.devRef .tc main_v6) = W (Proc.devRef .tc main_v6) := by
  dsimp only [hostOps2]; after_results

theorem s2_keep_v14 (W : Valuation τ sig (Elt Ideal)) :
    after (hostOps2 (F := Ideal)) W (Proc.devRef .tc main_v14) = W (Proc.devRef .tc main_v14) := by
  dsimp only [hostOps2]; after_results

/-! ## Before the fourth region -/

theorem s3_v41 (W : Valuation τ sig (Elt Ideal)) :
    after (hostOps3 (F := Ideal)) W (Proc.devRef .tc main_v41)
      = aggK (C := 1) scatter_S100000x1_S1700000x1_S1700000x1_1_0_0_1_wf gather_S100000x1_S1700000x1_S1700000x1_1_0_n_n_0_1_11_wf
          bcast_S_S100000x1 bcast_S1700000_S1700000x1_0 bcast_S_S1700000
          (W (Proc.devRef .tc main_v6)) (W (Proc.devRef .tc main_v3)) (W (Proc.devRef .tc main_v31)) := by
  dsimp only [hostOps3]; after_results; rfl

theorem s3_v42 (W : Valuation τ sig (Elt Ideal)) :
    after (hostOps3 (F := Ideal)) W (Proc.devRef .tc main_v42)
      = shapeCast S100000x1 (W (Proc.devRef .tc main_v14)) shapeCasts_S100000_S100000x1 := by
  dsimp only [hostOps3]; after_results; rfl

theorem s3_v43 (W : Valuation τ sig (Elt Ideal)) :
    after (hostOps3 (F := Ideal)) W (Proc.devRef .tc main_v43)
      = shapeCast S1x1 (W (Proc.devRef .tc main_arg5)) shapeCasts_S1_S1x1 := by
  dsimp only [hostOps3]; after_results; rfl

end Cert.KernelIdeal.Stretch

end
-- ==== Proof.KernelRun.lean ====
/-
  The idealized kernel's run with its last contents named.

  @main is ten segments: stretches of host operations and four pipelined regions. The launch theorem for such a chain
  ends with every unscoped buffer of a core at the last boundary's contents `W10` — the fold of the stretches' results
  and the regions' write-backs from the launch memory. Here that is stated as it stands; the result array and the
  arguments are then read off `W10`.
-/
import proofs.«178391_j5583457485492_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    last boundary's contents. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The same run, read at the result array and at the six arguments: the result at the last contents, each argument
    as launched. -/
theorem run_result : θ_run defs (onTc (τ := τ) (main (F := F))) ⟨m, fun _ => 0, ρ⟩ (fun r => ∀ c : Dev nD,
      r.2.mem ((c.tc : Thread nD τ).loc main_v44) = W10 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun s h c =>
      ⟨h c _ (mem_uc main_v44 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)
    (run_final m ρ)

end Cert.KernelIdeal.Run

end
-- ==== Proof.LibDense.lean ====
/-
  Dense layers on the extended reals, index by index.

  A matrix here is a function of a two-coordinate index into the extended reals.  `mm X W` is the
  textbook product: entry (r, j) is the sum over k of X (r, k) * W (k, j).  A matrix unit's product into a zero
  accumulator, read at an output index, is that sum (`matmul_zero_eq`), whatever the formats of the operands
  (a change of float format is the identity on the extended reals); the host's `dot_general` likewise
  (`dotGeneral_eq`).  `ssp` is the shifted softplus as the kernel spells it,
  max z 0 + log1p (exp (0 - |z - 0|)) - log 2 under a guard `z - 0 ≠ z - 0` that never fires on the
  extended reals, and `ssp_host` says that the host's spelling, with a negation in place of the subtraction
  from zero, is the same number.
-/
import Idealize.ShloMosaic.Lib.ValueIdx
import Idealize.ShloMosaic.Lib.Pipeline.Value
import Idealize.ShloMosaic.PureOps.Ideal.Laws

noncomputable section

namespace Cert.Dense

open Idealize.ShloMosaic Idealize.ShloMosaic.ValueIdx

/-- Entry (r, j) of the product of an [R, K] matrix and a [K, C] matrix: the sum over k of X (r, k) * W (k, j). -/
def mm {R K C : Nat} (X : (⟨2, ![R, K]⟩ : Shape).Idx → EReal) (W : (⟨2, ![K, C]⟩ : Shape).Idx → EReal) :
    (⟨2, ![R, C]⟩ : Shape).Idx → EReal :=
  fun i => ∑ k : Fin K, X (ix2 (i 0) k) * W (ix2 k (i 1))

/-- A product into the zero accumulator, with dimension numbers that contract the left operand's second axis
    with the right operand's first, is `mm` at every output index. -/
theorem matmul_zero_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision)
    (lhs : FVec Ideal ⟨2, ![R, K]⟩ φ₁) (rhs : FVec Ideal ⟨2, ![K, C]⟩ φ₂) (j : (⟨2, ![R, C]⟩ : Shape).Idx) :
    FloatOps.matmul D prec lhs rhs (constant ⟨2, ![R, C]⟩ .f32 0x00000000#32) j = mm lhs rhs j := by
  rw [Ideal.matmul_constant_zero_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- The host's product of the same operands is the same sum. -/
theorem dotGeneral_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision) (sched : HostSchedule)
    (lhs : FVec Ideal ⟨2, ![R, K]⟩ φ₁) (rhs : FVec Ideal ⟨2, ![K, C]⟩ φ₂) (j : (⟨2, ![R, C]⟩ : Shape).Idx) :
    FloatOps.dotGeneral D prec sched lhs rhs j = mm lhs rhs j := by
  rw [Ideal.dotGeneral_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- Two products agree at two entries when the left operands agree along the two rows and the right operands
    along the two columns. -/
theorem mm_congr {R R' K C C' : Nat} {X : (⟨2, ![R, K]⟩ : Shape).Idx → EReal} {X' : (⟨2, ![R', K]⟩ : Shape).Idx → EReal}
    {W : (⟨2, ![K, C]⟩ : Shape).Idx → EReal} {W' : (⟨2, ![K, C']⟩ : Shape).Idx → EReal}
    (i : (⟨2, ![R, C]⟩ : Shape).Idx) (i' : (⟨2, ![R', C']⟩ : Shape).Idx)
    (hX : ∀ k : Fin K, X (ix2 (i 0) k) = X' (ix2 (i' 0) k))
    (hW : ∀ k : Fin K, W (ix2 k (i 1)) = W' (ix2 k (i' 1))) : mm X W i = mm X' W' i' := by
  unfold mm
  exact Finset.sum_congr rfl fun k _ => by rw [hX k, hW k]

/-- The zero and the shift of the softplus, as the float words both programs spell. -/
abbrev z0 : EReal := Ideal.ofBits .f32 0x00000000#32
abbrev ln2 : EReal := Ideal.ofBits .f32 0x3F317218#32

/-- The shifted softplus of one extended real, in the kernel's spelling. -/
def ssp (z : EReal) : EReal :=
  Scalar.select (Ideal.cmp .one (z - z0) (z - z0)) (z + z0)
    (max z z0 + Ideal.log1p (Ideal.exp (z0 - max (z - z0) (-(z - z0))))) - ln2

/-- The host's spelling: the unordered comparison in the guard (the same comparison on a linear order) and a
    negation where the kernel subtracts from zero. -/
theorem ssp_host (z : EReal) :
    Scalar.select (Ideal.cmp .une (z - z0) (z - z0)) (z + z0)
      (max z z0 + Ideal.log1p (Ideal.exp (-(max (z - z0) (-(z - z0)))))) - ln2 = ssp z := by
  unfold ssp
  have h0 : ∀ a : EReal, z0 - a = -a := fun a => by
    show Ideal.ofBits .f32 0x00000000#32 - a = -a
    rw [Ideal.ofBits_zero_f32, zero_sub]
  rw [h0]
  rfl

/-! ## The layers of the interaction block, entry by entry

  A bias is kept as the [1, C] row both programs hand to the layer; the per-edge distance as an [E, 1] column. -/

/-- The cosine cutoff's constants, as the float words both programs spell: π/10 rounded to f32, one, one half. -/
abbrev kpi : EReal := Ideal.ofBits .f32 0x3EA0D97C#32
abbrev one : EReal := Ideal.ofBits .f32 0x3F800000#32
abbrev half : EReal := Ideal.ofBits .f32 0x3F000000#32

/-- A length-C vector as the [1, C] row a layer takes its bias as, and a length-E vector as an [E, 1] column. -/
def row {C : Nat} (b : (⟨1, ![C]⟩ : Shape).Idx → EReal) : (⟨2, ![1, C]⟩ : Shape).Idx → EReal := fun i => b (ix1 (i 1))
def col {E : Nat} (d : (⟨1, ![E]⟩ : Shape).Idx → EReal) : (⟨2, ![E, 1]⟩ : Shape).Idx → EReal := fun i => d (ix1 (i 0))

/-- A dense layer: entry (r, j) of X · W plus the bias row's entry j. -/
def lin {R K C : Nat} (X : (⟨2, ![R, K]⟩ : Shape).Idx → EReal) (W : (⟨2, ![K, C]⟩ : Shape).Idx → EReal)
    (B : (⟨2, ![1, C]⟩ : Shape).Idx → EReal) : (⟨2, ![R, C]⟩ : Shape).Idx → EReal :=
  fun i => mm X W i + B (ix2 (0 : Fin 1) (i 1))

/-- The cosine cutoff of row r's distance d: one half of (cos (d · π/10) + 1). -/
def cutoff {R : Nat} (D : (⟨2, ![R, 1]⟩ : Shape).Idx → EReal) (r : Fin R) : EReal :=
  half * (Ideal.cos (D (ix2 r (0 : Fin 1)) * kpi) + one)

/-- Two dense layers with the shifted softplus between them. -/
def mlp {R K C C' : Nat} (X : (⟨2, ![R, K]⟩ : Shape).Idx → EReal) (W1 : (⟨2, ![K, C]⟩ : Shape).Idx → EReal)
    (B1 : (⟨2, ![1, C]⟩ : Shape).Idx → EReal) (W2 : (⟨2, ![C, C']⟩ : Shape).Idx → EReal)
    (B2 : (⟨2, ![1, C']⟩ : Shape).Idx → EReal) : (⟨2, ![R, C']⟩ : Shape).Idx → EReal :=
  lin (fun i' => ssp (lin X W1 B1 i')) W2 B2

/-- The edge filter: the two-layer filter network of an edge's features, times the edge's cutoff. -/
def edgeFilter {E K C C' : Nat} (A : (⟨2, ![E, K]⟩ : Shape).Idx → EReal) (D : (⟨2, ![E, 1]⟩ : Shape).Idx → EReal)
    (W1 : (⟨2, ![K, C]⟩ : Shape).Idx → EReal) (B1 : (⟨2, ![1, C]⟩ : Shape).Idx → EReal)
    (W2 : (⟨2, ![C, C']⟩ : Shape).Idx → EReal) (B2 : (⟨2, ![1, C']⟩ : Shape).Idx → EReal) :
    (⟨2, ![E, C']⟩ : Shape).Idx → EReal :=
  fun i => mlp A W1 B1 W2 B2 i * cutoff D (i 0)

/-- Two dense layers agree at an entry when their inputs agree on the entry's row and their weights and biases
    on its column. -/
theorem lin_congr {R R' K C : Nat} {X : (⟨2, ![R, K]⟩ : Shape).Idx → EReal} {X' : (⟨2, ![R', K]⟩ : Shape).Idx → EReal}
    {W W' : (⟨2, ![K, C]⟩ : Shape).Idx → EReal} {B B' : (⟨2, ![1, C]⟩ : Shape).Idx → EReal}
    (i : (⟨2, ![R, C]⟩ : Shape).Idx) (i' : (⟨2, ![R', C]⟩ : Shape).Idx) (h1 : i 1 = i' 1)
    (hX : ∀ k : Fin K, X (ix2 (i 0) k) = X' (ix2 (i' 0) k)) (hW : W = W') (hB : B = B') :
    lin X W B i = lin X' W' B' i' := by
  subst hW hB
  unfold lin mm
  rw [h1]
  exact congrArg (· + B (ix2 (0 : Fin 1) (i' 1))) (Finset.sum_congr rfl fun k _ => by rw [hX k])

end Cert.Dense

end
-- ==== Proof.LibLayoutCol.lean ====
/-
  Two layout operations read at an index written by coordinates, for a column kept after a reduction along the
  rows' second axis: a vector of length a viewed as an [a, 1] column, and an [a, 1] column repeated along b columns.
  They complete the leading-unit-axis forms of the library's ValueLayout file.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Region0.lean ====
/-
  The first region: the first layer's product, scaled by the source's inverse root degree.

  Each of the 20 grid points reads rows 5000 t … 5000 t + 4999 of the features [100000, 64] and of the inverse root
  degree column, and the whole weight matrix [64, 128], and writes the same rows of the result: entry (r, k) is
  (Σ_j |x (r, j)| · W (j, k)) · dinv r — the change of float format before the product is the identity on the exact reals.
-/
import proofs.«178391_j5583457485492_1_alg».proof.Proof.Gen.KernelIdeal.Frame
import proofs.«178391_j5583457485492_1_alg».proof.Proof.LibDense
import proofs.«178391_j5583457485492_1_alg».proof.Proof.LibLayoutCol
import Idealize.ShloMosaic.Lib.ValueLayout
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl
abbrev D := dot_S5000x64_S64x128_S5000x128_1_0_0_1_n_n

theorem l0 (i : S5000x128.Idx) (q : D.contr.Idx) : (D.lhsIdx i q 0).val = (i 0).val := by
  unfold DotDims.lhsIdx
  rw [dif_neg (show ¬(0 : Fin S5000x64.rank) ∈ D.lhsBatch by decide), dif_pos (show (0 : Fin S5000x64.rank) ∈ D.lhsNonContracting by decide)]
  rfl
theorem l1 (i : S5000x128.Idx) (q : D.contr.Idx) : (D.lhsIdx i q 1).val = (q ⟨0, by decide⟩).val :=
  D.lhsIdx_val_of_single rfl i q
theorem r0 (i : S5000x128.Idx) (q : D.contr.Idx) : (D.rhsIdx i q 0).val = (q ⟨0, by decide⟩).val :=
  D.rhsIdx_val_of_single rfl i q
theorem r1 (i : S5000x128.Idx) (q : D.contr.Idx) : (D.rhsIdx i q 1).val = (i 1).val := by
  unfold DotDims.rhsIdx
  rw [dif_neg (show ¬(1 : Fin S64x128.rank) ∈ D.rhsBatch by decide), dif_pos (show (1 : Fin S64x128.rank) ∈ D.rhsNonContracting by decide)]
  rfl

/-- Entry (r, k): the product of the absolute features with the weights, scaled by row r's factor. -/
def G (a0 : S100000x64.Idx → EReal) (a1 : S64x128.Idx → EReal) (a2 : S100000x1.Idx → EReal) : S100000x128.Idx → EReal :=
  fun i => Cert.Dense.mm (fun j => max (a0 j) (-(a0 j))) a1 i * a2 (ix2 (i 0) (0 : Fin 1))

/-- The body's stored value at (p, q) of its blocks. -/
theorem pay_apply (x0 : Vec Ideal S5000x64 .f32) (x1 : Vec Ideal S64x128 .f32) (x2 : Vec Ideal S5000x1 .f32) (p : Fin 5000) (q : Fin 128) :
    k0_pay1 (F := Ideal) x0 x1 x2 (ix2 p q)
      = Cert.Dense.mm (fun j => max (x0 j) (-(x0 j))) x1 (ix2 p q) * x2 (ix2 p (0 : Fin 1)) := by
  unfold k0_pay1
  simp only [shapeCast_self]
  show (FloatOps.matmul (F := Ideal) D none (truncf .bf16 (absf x0) bitsLt_bf16_f32) (truncf .bf16 x1 bitsLt_bf16_f32) (constant S5000x128 .f32 0x00000000#32) (ix2 p q) : EReal)
      * broadcastTo S5000x128 x2 broadcasts_S5000x1_S5000x128 (ix2 p q) = _
  rw [broadcastTo_a1_ab_apply]
  refine congrArg (· * x2 (ix2 p (0 : Fin 1))) ?_
  exact Cert.Dense.matmul_zero_eq D rfl rfl l0 l1 r0 r1 none _ _ (ix2 p q)

/-- The printed index maps over the grid: a row-blocked window sits at block (t, 0), a whole one at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ t.val < 20 :=
  (by decide +kernel : ∀ t : Fin grid0.N, _)

theorem idx_onto : ∀ q : Fin 20, ∃ t : Fin cfg0.N, t.val = q.val :=
  (by decide +kernel : ∀ q : Fin 20, ∃ t : Fin grid0.N, t.val = q.val)

section
variable (V : (c : Dev nD) → (b : Ref sig .tc) → Buf (Elt Ideal) ((c : Thread nD τ).loc b))

/-- What point t writes back is block t of G of the arrays as the region finds them. -/
theorem flushed_eq (c : Dev nD) (t : Fin cfg0.N) :
    (dat0 V c).flushed 3 t = ((cfg0.win 3).blk t).view.read (Elt Ideal) (G (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x128) hz, View.ld_unit_zero (S := S5000x1) hz, View.ld_unit_zero (S := S5000x128) hz]
  obtain ⟨e00, e01, e10, e11, e20, e21, e30, e31, ht⟩ := idx_facts t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
      = G (V c main_arg0) (V c main_arg2) (V c main_v15) (((cfg0.win 3).blk t).view.emb (ix2 p q))
  refine (pay_apply _ _ _ p q).trans ?_
  unfold G
  have h0 : ∀ k : Fin 64, iblk0 V c 0 t (ix2 p k) = V c main_arg0 (ix2 ((((cfg0.win 3).blk t).view.emb (ix2 p q)) 0) k) := fun k => by
    show V c main_arg0 (((cfg0.win 0).blk t).view.emb (ix2 p k)) = _
    refine congrArg (V c main_arg0) (funext fun a => Fin.ext ?_)
    match a with
    | ⟨0, _⟩ => show win0_0.index t 0 * 5000 + 1 * p.val = win0_3.index t 0 * 5000 + 1 * p.val; omega
    | ⟨1, _⟩ => show win0_0.index t 1 * 64 + 1 * k.val = k.val; omega
  have h1 : ∀ k : Fin 64, iblk0 V c 1 t (ix2 k q) = V c main_arg2 (ix2 k ((((cfg0.win 3).blk t).view.emb (ix2 p q)) 1)) := fun k => by
    show V c main_arg2 (((cfg0.win 1).blk t).view.emb (ix2 k q)) = _
    refine congrArg (V c main_arg2) (funext fun a => Fin.ext ?_)
    match a with
    | ⟨0, _⟩ => show win0_1.index t 0 * 64 + 1 * k.val = k.val; omega
    | ⟨1, _⟩ => show win0_1.index t 1 * 128 + 1 * q.val = win0_3.index t 1 * 128 + 1 * q.val; omega
  have h2 : iblk0 V c 2 t (ix2 p (0 : Fin 1)) = V c main_v15 (ix2 ((((cfg0.win 3).blk t).view.emb (ix2 p q)) 0) (0 : Fin 1)) := by
    show V c main_v15 (((cfg0.win 2).blk t).view.emb (ix2 p (0 : Fin 1))) = _
    refine congrArg (V c main_v15) (funext fun a => Fin.ext ?_)
    match a with
    | ⟨0, _⟩ => show win0_2.index t 0 * 5000 + 1 * p.val = win0_3.index t 0 * 5000 + 1 * p.val; omega
    | ⟨1, _⟩ => show win0_2.index t 1 * 1 + 1 * 0 = 0; omega
  refine congrArg₂ (fun a b : EReal => a * b) (Cert.Dense.mm_congr (ix2 p q) (((cfg0.win 3).blk t).view.emb (ix2 p q)) (fun k => ?_) (fun k => h1 k)) h2
  exact congrArg (fun x : EReal => max x (-x)) (h0 k)

/-- An index of the array is in point t's block iff its row is among the block's 5000 rows. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- The 20 blocks of 5000 rows tile the array: row r is in the block of point r / 5000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 5000, by omega⟩
  obtain ⟨e00, e01, e10, e11, e20, e21, e30, e31, hlt⟩ := idx_facts t
  have ht' : t.val = (i 0).val / 5000 := ht
  refine ⟨t, flush0_3 t, ?_⟩
  rw [mem_blk]
  intro a
  match a with
  | ⟨0, _⟩ => show win0_3.index t 0 * 5000 ≤ (i 0).val ∧ (i 0).val < win0_3.index t 0 * 5000 + 5000; omega
  | ⟨1, _⟩ => show win0_3.index t 1 * 128 ≤ (i 1).val ∧ (i 1).val < win0_3.index t 1 * 128 + 128; omega

/-- THE ARRAY after the region: G of the arrays as the region finds them. -/
theorem final (c : Dev nD) : (dat0 V c).arrAt 3 cfg0.N = G (V c main_arg0) (V c main_arg2) (V c main_v15) :=
  (dat0 V c).arrAt_eq_of_cover 3 (G (V c main_arg0) (V c main_arg2) (V c main_v15)) (fun t _ => flushed_eq V c t) cover

end

end Cert.KernelIdeal.Region0

end
-- ==== Proof.Region1.lean ====
/-
  The second region: the first layer's scale by the target's inverse root degree, bias and rectifier.

  Each of the 20 grid points reads rows 5000 t … 5000 t + 4999 of the aggregate [100000, 128] and of the inverse root
  degree column, and the bias row, and writes the same rows of the result: max (agg (r, k) · dinv r + b k, 0).
-/
import proofs.«178391_j5583457485492_1_alg».proof.Proof.Gen.KernelIdeal.Frame
import proofs.«178391_j5583457485492_1_alg».proof.Proof.LibDense
import proofs.«178391_j5583457485492_1_alg».proof.Proof.LibLayoutCol
import Idealize.ShloMosaic.Lib.ValueLayout
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- Entry (r, k): the rectified sum of the aggregate scaled by row r's factor and the bias of column k. -/
def G (a0 : S100000x128.Idx → EReal) (a1 : S100000x1.Idx → EReal) (a2 : S1x128.Idx → EReal) : S100000x128.Idx → EReal :=
  fun i => max (a0 i * a1 (ix2 (i 0) (0 : Fin 1)) + a2 (ix2 (0 : Fin 1) (i 1))) (Ideal.ofBits .f32 0x00000000#32)

/-- The body's stored value at (p, q) of its blocks. -/
theorem pay_apply (x0 : Vec Ideal S5000x128 .f32) (x1 : Vec Ideal S5000x1 .f32) (x2 : Vec Ideal S1x128 .f32) (p : Fin 5000) (q : Fin 128) :
    k1_pay1 (F := Ideal) x0 x1 x2 (ix2 p q)
      = max (x0 (ix2 p q) * x1 (ix2 p (0 : Fin 1)) + x2 (ix2 (0 : Fin 1) q)) (Ideal.ofBits .f32 0x00000000#32) := by
  unfold k1_pay1
  simp only [shapeCast_self]
  show max (x0 (ix2 p q) * broadcastTo S5000x128 x1 broadcasts_S5000x1_S5000x128 (ix2 p q)
      + broadcastTo S5000x128 x2 broadcasts_S1x128_S5000x128 (ix2 p q)) (Ideal.ofBits .f32 0x00000000#32) = _
  rw [broadcastTo_a1_ab_apply, broadcastTo_1b_ab_apply]

/-- The printed index maps over the grid: a row-blocked window sits at block (t, 0), a whole one at (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 20 :=
  (by decide +kernel : ∀ t : Fin grid1.N, _)

theorem idx_onto : ∀ q : Fin 20, ∃ t : Fin cfg1.N, t.val = q.val :=
  (by decide +kernel : ∀ q : Fin 20, ∃ t : Fin grid1.N, t.val = q.val)

section
variable (V : (c : Dev nD) → (b : Ref sig .tc) → Buf (Elt Ideal) ((c : Thread nD τ).loc b))

/-- What point t writes back is block t of G of the arrays as the region finds them. -/
theorem flushed_eq (c : Dev nD) (t : Fin cfg1.N) :
    (dat1 V c).flushed 3 t = ((cfg1.win 3).blk t).view.read (Elt Ideal) (G (V c main_v26) (V c main_v27) (V c main_v28)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S1x128) hz]
  obtain ⟨e00, e01, e10, e11, e20, e21, e30, e31, ht⟩ := idx_facts t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (ix2 p q)
      = G (V c main_v26) (V c main_v27) (V c main_v28) (((cfg1.win 3).blk t).view.emb (ix2 p q))
  refine (pay_apply _ _ _ p q).trans ?_
  unfold G
  have h0 : iblk1 V c 0 t (ix2 p q) = V c main_v26 (((cfg1.win 3).blk t).view.emb (ix2 p q)) := by
    show V c main_v26 (((cfg1.win 0).blk t).view.emb (ix2 p q)) = _
    refine congrArg (V c main_v26) (funext fun a => Fin.ext ?_)
    match a with
    | ⟨0, _⟩ => show win1_0.index t 0 * 5000 + 1 * p.val = win1_3.index t 0 * 5000 + 1 * p.val; omega
    | ⟨1, _⟩ => show win1_0.index t 1 * 128 + 1 * q.val = win1_3.index t 1 * 128 + 1 * q.val; omega
  have h1 : iblk1 V c 1 t (ix2 p (0 : Fin 1)) = V c main_v27 (ix2 ((((cfg1.win 3).blk t).view.emb (ix2 p q)) 0) (0 : Fin 1)) := by
    show V c main_v27 (((cfg1.win 1).blk t).view.emb (ix2 p (0 : Fin 1))) = _
    refine congrArg (V c main_v27) (funext fun a => Fin.ext ?_)
    match a with
    | ⟨0, _⟩ => show win1_1.index t 0 * 5000 + 1 * p.val = win1_3.index t 0 * 5000 + 1 * p.val; omega
    | ⟨1, _⟩ => show win1_1.index t 1 * 1 + 1 * 0 = 0; omega
  have h2 : iblk1 V c 2 t (ix2 (0 : Fin 1) q) = V c main_v28 (ix2 (0 : Fin 1) ((((cfg1.win 3).blk t).view.emb (ix2 p q)) 1)) := by
    show V c main_v28 (((cfg1.win 2).blk t).view.emb (ix2 (0 : Fin 1) q)) = _
    refine congrArg (V c main_v28) (funext fun a => Fin.ext ?_)
    match a with
    | ⟨0, _⟩ => show win1_2.index t 0 * 1 + 1 * 0 = 0; omega
    | ⟨1, _⟩ => show win1_2.index t 1 * 128 + 1 * q.val = win1_3.index t 1 * 128 + 1 * q.val; omega
  rw [h0, h1, h2]

/-- An index of the array is in point t's block iff its row is among the block's 5000 rows. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v29).slice (win1_3.rect t)).set ↔ _
  rw [View.set_slice_whole, Rect.mem_set_unit]
  exact Iff.rfl

/-- The 20 blocks of 5000 rows tile the array: row r is in the block of point r / 5000. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 5000, by omega⟩
  obtain ⟨e00, e01, e10, e11, e20, e21, e30, e31, hlt⟩ := idx_facts t
  have ht' : t.val = (i 0).val / 5000 := ht
  refine ⟨t, flush1_3 t, ?_⟩
  rw [mem_blk]
  intro a
  match a with
  | ⟨0, _⟩ => show win1_3.index t 0 * 5000 ≤ (i 0).val ∧ (i 0).val < win1_3.index t 0 * 5000 + 5000; omega
  | ⟨1, _⟩ => show win1_3.index t 1 * 128 ≤ (i 1).val ∧ (i 1).val < win1_3.index t 1 * 128 + 128; omega

/-- THE ARRAY after the region: G of the arrays as the region finds them. -/
theorem final (c : Dev nD) : (dat1 V c).arrAt 3 cfg1.N = G (V c main_v26) (V c main_v27) (V c main_v28) :=
  (dat1 V c).arrAt_eq_of_cover 3 (G (V c main_v26) (V c main_v27) (V c main_v28)) (fun t _ => flushed_eq V c t) cover

end

end Cert.KernelIdeal.Region1

end
-- ==== Proof.Region2.lean ====
/-
  The third region: the second layer's product, scaled by the source's inverse root degree.

  Each of the 20 grid points reads rows 5000 t … 5000 t + 4999 of the hidden features [100000, 128] and of the inverse
  root degree column, and the whole weight column [128, 1], and writes the same rows of the result: entry (r, 0) is
  (Σ_k h (r, k) · W (k, 0)) · dinv r.
-/
import proofs.«178391_j5583457485492_1_alg».proof.Proof.Gen.KernelIdeal.Frame
import proofs.«178391_j5583457485492_1_alg».proof.Proof.LibDense
import proofs.«178391_j5583457485492_1_alg».proof.Proof.LibLayoutCol
import Idealize.ShloMosaic.Lib.ValueLayout
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl
abbrev D := dot_S5000x128_S128x1_S5000x1_1_0_0_1_n_n

theorem l0 (i : S5000x1.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem l1 (i : S5000x1.Idx) (q : D.contr.Idx) : (D.lhsIdx i q 1).val = (q ⟨0, by decide⟩).val :=
  D.lhsIdx_val_of_single rfl i q
theorem r0 (i : S5000x1.Idx) (q : D.contr.Idx) : (D.rhsIdx i q 0).val = (q ⟨0, by decide⟩).val :=
  D.rhsIdx_val_of_single rfl i q
theorem r1 (i : S5000x1.Idx) (q : D.contr.Idx) : (D.rhsIdx i q 1).val = (i 1).val := by
  unfold DotDims.rhsIdx
  rw [dif_neg (show ¬(1 : Fin S128x1.rank) ∈ D.rhsBatch by decide), dif_pos (show (1 : Fin S128x1.rank) ∈ D.rhsNonContracting by decide)]
  rfl

/-- Entry (r, 0): the product of the hidden features with the weight column, scaled by row r's factor. -/
def G (a0 : S100000x128.Idx → EReal) (a1 : S128x1.Idx → EReal) (a2 : S100000x1.Idx → EReal) : S100000x1.Idx → EReal :=
  fun i => Cert.Dense.mm a0 a1 i * a2 i

/-- The body's stored value at (p, q) of its blocks. -/
theorem pay_apply (x0 : Vec Ideal S5000x128 .f32) (x1 : Vec Ideal S128x1 .f32) (x2 : Vec Ideal S5000x1 .f32) (p : Fin 5000) (q : Fin 1) :
    k2_pay1 (F := Ideal) x0 x1 x2 (ix2 p q)
      = Cert.Dense.mm x0 x1 (ix2 p q) * x2 (ix2 p q) := by
  unfold k2_pay1
  simp only [shapeCast_self]
  show (FloatOps.matmul (F := Ideal) D none (truncf .bf16 x0 bitsLt_bf16_f32) (truncf .bf16 x1 bitsLt_bf16_f32) (constant S5000x1 .f32 0x00000000#32) (ix2 p q) : EReal)
      * x2 (ix2 p q) = _
  refine congrArg (· * x2 (ix2 p q)) ?_
  exact Cert.Dense.matmul_zero_eq D rfl rfl l0 l1 r0 r1 none _ _ (ix2 p q)

/-- The printed index maps over the grid: a row-blocked window sits at block (t, 0), a whole one at (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 ∧ t.val < 20 :=
  (by decide +kernel : ∀ t : Fin grid2.N, _)

theorem idx_onto : ∀ q : Fin 20, ∃ t : Fin cfg2.N, t.val = q.val :=
  (by decide +kernel : ∀ q : Fin 20, ∃ t : Fin grid2.N, t.val = q.val)

section
variable (V : (c : Dev nD) → (b : Ref sig .tc) → Buf (Elt Ideal) ((c : Thread nD τ).loc b))

/-- What point t writes back is block t of G of the arrays as the region finds them. -/
theorem flushed_eq (c : Dev nD) (t : Fin cfg2.N) :
    (dat2 V c).flushed 3 t = ((cfg2.win 3).blk t).view.read (Elt Ideal) (G (V c main_v29) (V c main_arg4) (V c main_v30)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x1) hz, View.ld_unit_zero (S := S5000x1) hz]
  obtain ⟨e00, e01, e10, e11, e20, e21, e30, e31, ht⟩ := idx_facts t
  funext j
  obtain ⟨p, q, rfl⟩ : ∃ (p : Fin 5000) (q : Fin 1), j = ix2 p q := ⟨j 0, j 1, eq_ix2 j⟩
  show k2_pay1 (F := Ideal) (iblk2 V c 0 t) (iblk2 V c 1 t) (iblk2 V c 2 t) (ix2 p q)
      = G (V c main_v29) (V c main_arg4) (V c main_v30) (((cfg2.win 3).blk t).view.emb (ix2 p q))
  refine (pay_apply _ _ _ p q).trans ?_
  unfold G
  have h0 : ∀ k : Fin 128, iblk2 V c 0 t (ix2 p k) = V c main_v29 (ix2 ((((cfg2.win 3).blk t).view.emb (ix2 p q)) 0) k) := fun k => by
    show V c main_v29 (((cfg2.win 0).blk t).view.emb (ix2 p k)) = _
    refine congrArg (V c main_v29) (funext fun a => Fin.ext ?_)
    match a with
    | ⟨0, _⟩ => show win2_0.index t 0 * 5000 + 1 * p.val = win2_3.index t 0 * 5000 + 1 * p.val; omega
    | ⟨1, _⟩ => show win2_0.index t 1 * 128 + 1 * k.val = k.val; omega
  have h1 : ∀ k : Fin 128, iblk2 V c 1 t (ix2 k q) = V c main_arg4 (ix2 k ((((cfg2.win 3).blk t).view.emb (ix2 p q)) 1)) := fun k => by
    show V c main_arg4 (((cfg2.win 1).blk t).view.emb (ix2 k q)) = _
    refine congrArg (V c main_arg4) (funext fun a => Fin.ext ?_)
    match a with
    | ⟨0, _⟩ => show win2_1.index t 0 * 128 + 1 * k.val = k.val; omega
    | ⟨1, _⟩ => show win2_1.index t 1 * 1 + 1 * q.val = win2_3.index t 1 * 1 + 1 * q.val; omega
  have h2 : iblk2 V c 2 t (ix2 p q) = V c main_v30 (((cfg2.win 3).blk t).view.emb (ix2 p q)) := by
    show V c main_v30 (((cfg2.win 2).blk t).view.emb (ix2 p q)) = _
    refine congrArg (V c main_v30) (funext fun a => Fin.ext ?_)
    match a with
    | ⟨0, _⟩ => show win2_2.index t 0 * 5000 + 1 * p.val = win2_3.index t 0 * 5000 + 1 * p.val; omega
    | ⟨1, _⟩ => show win2_2.index t 1 * 1 + 1 * q.val = win2_3.index t 1 * 1 + 1 * q.val; omega
  exact congrArg₂ (fun a b : EReal => a * b) (Cert.Dense.mm_congr (ix2 p q) (((cfg2.win 3).blk t).view.emb (ix2 p q)) (fun k => h0 k) (fun k => h1 k)) h2

/-- An index of the array is in point t's block iff its row is among the block's 5000 rows. -/
theorem mem_blk (t : Fin cfg2.N) (i : S100000x1.Idx) :
    i ∈ ((cfg2.win 3).blk t).view.set ↔ ∀ a : Fin 2, win2_3.index t a * S5000x1.size a ≤ (i a).val ∧ (i a).val < win2_3.index t a * S5000x1.size a + S5000x1.size a := by
  show i ∈ ((View.whole main_v31).slice (win2_3.rect t)).set ↔ _
  rw [View.set_slice_whole, Rect.mem_set_unit]
  exact Iff.rfl

/-- The 20 blocks of 5000 rows tile the array: row r is in the block of point r / 5000. -/
theorem cover (i : S100000x1.Idx) : ∃ t : Fin cfg2.N, (cfg2.win 3).flush t = true ∧ i ∈ ((cfg2.win 3).blk t).view.set := by
  have hi0 : (i 0).val < 100000 := (i 0).isLt
  have hi1 : (i 1).val < 1 := (i 1).isLt
  obtain ⟨t, ht⟩ := idx_onto ⟨(i 0).val / 5000, by omega⟩
  obtain ⟨e00, e01, e10, e11, e20, e21, e30, e31, hlt⟩ := idx_facts t
  have ht' : t.val = (i 0).val / 5000 := ht
  refine ⟨t, flush2_3 t, ?_⟩
  rw [mem_blk]
  intro a
  match a with
  | ⟨0, _⟩ => show win2_3.index t 0 * 5000 ≤ (i 0).val ∧ (i 0).val < win2_3.index t 0 * 5000 + 5000; omega
  | ⟨1, _⟩ => show win2_3.index t 1 * 1 ≤ (i 1).val ∧ (i 1).val < win2_3.index t 1 * 1 + 1; omega

/-- THE ARRAY after the region: G of the arrays as the region finds them. -/
theorem final (c : Dev nD) : (dat2 V c).arrAt 3 cfg2.N = G (V c main_v29) (V c main_arg4) (V c main_v30) :=
  (dat2 V c).arrAt_eq_of_cover 3 (G (V c main_v29) (V c main_arg4) (V c main_v30)) (fun t _ => flushed_eq V c t) cover

end

end Cert.KernelIdeal.Region2

end
-- ==== Proof.Region3.lean ====
/-
  The fourth region: bias, rectifier and logistic of the aggregated column.

  Each of the 20 grid points reads rows 5000 t … 5000 t + 4999 of the aggregate and of the inverse root degree column,
  and the one bias entry, and writes the same rows of the result. So the result array after the region is, row by row,
  logistic (max (agg · dinv + b, 0)) of the arrays as the region finds them.
-/
import proofs.«178391_j5583457485492_1_alg».proof.Proof.Gen.KernelIdeal.Frame
import proofs.«178391_j5583457485492_1_alg».proof.Proof.LibDense
import proofs.«178391_j5583457485492_1_alg».proof.Proof.LibLayoutCol
import Idealize.ShloMosaic.Lib.ValueLayout
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- Row by row: the logistic of the rectified sum of the scaled aggregate and the bias. -/
def G (a0 a1 : S100000x1.Idx → EReal) (a2 : S1x1.Idx → EReal) : S100000x1.Idx → EReal :=
  fun i => Ideal.logistic (max (a0 i * a1 i + a2 (ix2 (0 : Fin 1) (i 1))) (Ideal.ofBits .f32 0x00000000#32))

/-- The body's stored value at row p of its blocks. -/
theorem pay_apply (x0 x1 : Vec Ideal S5000x1 .f32) (x2 : Vec Ideal S1x1 .f32) (p : Fin 5000) (u : Fin 1) :
    k3_pay1 (F := Ideal) x0 x1 x2 (ix2 p u)
      = Ideal.logistic (max (x0 (ix2 p u) * x1 (ix2 p u) + x2 (ix2 (0 : Fin 1) u)) (Ideal.ofBits .f32 0x00000000#32)) := by
  unfold k3_pay1
  simp only [shapeCast_self]
  show Ideal.logistic (max (x0 (ix2 p u) * x1 (ix2 p u) + broadcastTo S5000x1 x2 broadcasts_S1x1_S5000x1 (ix2 p u)) (Ideal.ofBits .f32 0x00000000#32)) = _
  rw [broadcastTo_1b_ab_apply]

/-- The printed index maps over the grid: the three row-blocked windows sit at block (t, 0), the bias at (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 ∧ t.val < 20 :=
  (by decide +kernel : ∀ t : Fin grid3.N, _)

theorem idx_onto : ∀ q : Fin 20, ∃ t : Fin cfg3.N, t.val = q.val :=
  (by decide +kernel : ∀ q : Fin 20, ∃ t : Fin grid3.N, t.val = q.val)

section
variable (V : (c : Dev nD) → (b : Ref sig .tc) → Buf (Elt Ideal) ((c : Thread nD τ).loc b))

/-- What point t writes back is block t of G of the arrays as the region finds them. -/
theorem flushed_eq (c : Dev nD) (t : Fin cfg3.N) :
    (dat3 V c).flushed 3 t = ((cfg3.win 3).blk t).view.read (Elt Ideal) (G (V c main_v41) (V c main_v42) (V c main_v43)) := by
  show (cfg3.win 3).cut (grid3.coords t) ((dat3 V c).after 3 t) = _
  rw [after3_3]
  unfold out3_3
  rw [View.canon_unit_zero hz]
  simp only [View.ld_unit_zero (S := S5000x1) hz, View.ld_unit_zero (S := S1x1) hz]
  obtain ⟨e00, e01, e10, e11, e20, e21, e30, e31, ht⟩ := idx_facts t
  funext j
  obtain ⟨p, u, rfl⟩ : ∃ (p : Fin 5000) (u : Fin 1), j = ix2 p u := ⟨j 0, j 1, eq_ix2 j⟩
  show k3_pay1 (F := Ideal) (iblk3 V c 0 t) (iblk3 V c 1 t) (iblk3 V c 2 t) (ix2 p u)
      = G (V c main_v41) (V c main_v42) (V c main_v43) (((cfg3.win 3).blk t).view.emb (ix2 p u))
  refine (pay_apply _ _ _ p u).trans ?_
  unfold G
  have h0 : iblk3 V c 0 t (ix2 p u) = V c main_v41 (((cfg3.win 3).blk t).view.emb (ix2 p u)) := by
    show V c main_v41 (((cfg3.win 0).blk t).view.emb (ix2 p u)) = _
    refine congrArg (V c main_v41) (funext fun a => Fin.ext ?_)
    match a with
    | ⟨0, _⟩ => show win3_0.index t 0 * 5000 + 1 * p.val = win3_3.index t 0 * 5000 + 1 * p.val; omega
    | ⟨1, _⟩ => show win3_0.index t 1 * 1 + 1 * u.val = win3_3.index t 1 * 1 + 1 * u.val; omega
  have h1 : iblk3 V c 1 t (ix2 p u) = V c main_v42 (((cfg3.win 3).blk t).view.emb (ix2 p u)) := by
    show V c main_v42 (((cfg3.win 1).blk t).view.emb (ix2 p u)) = _
    refine congrArg (V c main_v42) (funext fun a => Fin.ext ?_)
    match a with
    | ⟨0, _⟩ => show win3_1.index t 0 * 5000 + 1 * p.val = win3_3.index t 0 * 5000 + 1 * p.val; omega
    | ⟨1, _⟩ => show win3_1.index t 1 * 1 + 1 * u.val = win3_3.index t 1 * 1 + 1 * u.val; omega
  have h2 : iblk3 V c 2 t (ix2 (0 : Fin 1) u)
      = V c main_v43 (ix2 (0 : Fin 1) ((((cfg3.win 3).blk t).view.emb (ix2 p u)) 1)) := by
    show V c main_v43 (((cfg3.win 2).blk t).view.emb (ix2 (0 : Fin 1) u)) = _
    refine congrArg (V c main_v43) (funext fun a => Fin.ext ?_)
    match a with
    | ⟨0, _⟩ => show win3_2.index t 0 * 1 + 1 * 0 = 0; omega
    | ⟨1, _⟩ => show win3_2.index t 1 * 1 + 1 * u.val = win3_3.index t 1 * 1 + 1 * u.val; omega
  rw [h0, h1, h2]

/-- An index of the array is in point t's block iff its row is among the block's 5000 rows. -/
theorem mem_blk (t : Fin cfg3.N) (i : S100000x1.Idx) :
    i ∈ ((cfg3.win 3).blk t).view.set ↔ ∀ a : Fin 2, win3_3.index t a * S5000x1.size a ≤ (i a).val ∧ (i a).val < win3_3.index t a * S5000x1.size a + S5000x1.size a := by
  show i ∈ ((View.whole main_v44).slice (win3_3.rect t)).set ↔ _
  rw [View.set_slice_whole, Rect.mem_set_unit]
  exact Iff.rfl

/-- The 20 blocks of 5000 rows tile the array: row r is in the block of point r / 5000. -/
theorem cover (i : S100000x1.Idx) : ∃ t : Fin cfg3.N, (cfg3.win 3).flush t = true ∧ i ∈ ((cfg3.win 3).blk t).view.set := by
  have hi0 : (i 0).val < 100000 := (i 0).isLt
  have hi1 : (i 1).val < 1 := (i 1).isLt
  obtain ⟨t, ht⟩ := idx_onto ⟨(i 0).val / 5000, by omega⟩
  obtain ⟨e00, e01, e10, e11, e20, e21, e30, e31, hlt⟩ := idx_facts t
  have ht' : t.val = (i 0).val / 5000 := ht
  refine ⟨t, flush3_3 t, ?_⟩
  rw [mem_blk]
  intro a
  match a with
  | ⟨0, _⟩ => show win3_3.index t 0 * 5000 ≤ (i 0).val ∧ (i 0).val < win3_3.index t 0 * 5000 + 5000; omega
  | ⟨1, _⟩ => show win3_3.index t 1 * 1 ≤ (i 1).val ∧ (i 1).val < win3_3.index t 1 * 1 + 1; omega

/-- THE ARRAY after the region: G of the arrays as the region finds them. -/
theorem final (c : Dev nD) : (dat3 V c).arrAt 3 cfg3.N = G (V c main_v41) (V c main_v42) (V c main_v43) :=
  (dat3 V c).arrAt_eq_of_cover 3 (G (V c main_v41) (V c main_v42) (V c main_v43)) (fun t _ => flushed_eq V c t) cover

end

end Cert.KernelIdeal.Region3

end
-- ==== Proof.KernelValue.lean ====
/-
  The idealized kernel's result array as one function of its argument arrays.

  Walking @main's ten segments from the launch memory: the edges' words, the inverse root degree and the arguments are
  carried unchanged across every later boundary (no later stretch writes them and no region has them as an output);
  each region's output array is its whole-array function of the arrays it is entered with; each stretch's aggregate is
  the scatter-add of the rows gathered from the previous region's output. Composed:

      u₁ = (|x| W₁) · dinv,   h = max (agg u₁ · dinv + b₁, 0),   u₂ = (h W₂) · dinv,   out = logistic (max (agg u₂ · dinv + b₂, 0)).
-/
import proofs.«178391_j5583457485492_1_alg».proof.Proof.KernelStretch
import proofs.«178391_j5583457485492_1_alg».proof.Proof.KernelRun
import proofs.«178391_j5583457485492_1_alg».proof.Proof.Region0
import proofs.«178391_j5583457485492_1_alg».proof.Proof.Region1
import proofs.«178391_j5583457485492_1_alg».proof.Proof.Region2
import proofs.«178391_j5583457485492_1_alg».proof.Proof.Region3

set_option maxRecDepth 16384

noncomputable section

namespace Cert.KernelIdeal.Whole

open Cert.KernelIdeal Cert.KernelIdeal.Gen Cert.KernelIdeal.Stretch Cert.GcnRead
open Idealize.ShloMosaic Idealize.ShloMosaic.TcCoe Idealize.SL.Sem Idealize.ShloMosaic.StableHlo

/-! ## The composed function -/

section Spec
variable (a0 : FVec Ideal S100000x64 .f32) (a1 : IVec S2x1600000 32) (a2 : FVec Ideal S64x128 .f32)
  (a3 : FVec Ideal S128 .f32) (a4 : FVec Ideal S128x1 .f32) (a5 : FVec Ideal S1 .f32)

abbrev rowK : IVec S1700000 32 :=
  rowT slices_S2x1600000_S1x1600000_0_0 shapeCasts_S1x1600000_S1600000 concatenates_S1600000_S100000_S1700000_d0 a1
abbrev colK : IVec S1700000 32 :=
  colT slices_S2x1600000_S1x1600000_1_0 shapeCasts_S1x1600000_S1600000 concatenates_S1600000_S100000_S1700000_d0 a1
/-- The inverse root degree, and its [100000, 1] column. -/
abbrev dinvK : FVec Ideal S100000 .f32 :=
  dinvOf scatter_S100000_S1700000x1_S1700000_n_0_0_1_wf bcast_S_S100000 bcast_S_S1700000 bcast_S1700000_S1700000x1_0 (colK a1)
abbrev dcolK : FVec Ideal S100000x1 .f32 := shapeCast S100000x1 (dinvK a1) shapeCasts_S100000_S100000x1

/-- The first layer's scaled product, its aggregate, and the hidden features. -/
abbrev u1K : FVec Ideal S100000x128 .f32 := Region0.G a0 a2 (dcolK a1)
abbrev agg1K : FVec Ideal S100000x128 .f32 :=
  aggK (C := 128) scatter_S100000x128_S1700000x1_S1700000x128_1_0_0_1_wf gather_S100000x128_S1700000x1_S1700000x128_1_0_n_n_0_1_1128_wf
    bcast_S_S100000x128 bcast_S1700000_S1700000x1_0 bcast_S_S1700000 (colK a1) (rowK a1) (u1K a0 a1 a2)
abbrev hK : FVec Ideal S100000x128 .f32 := Region1.G (agg1K a0 a1 a2) (dcolK a1) (shapeCast S1x128 a3 shapeCasts_S128_S1x128)
/-- The second layer's scaled product, its aggregate, and the result. -/
abbrev u2K : FVec Ideal S100000x1 .f32 := Region2.G (hK a0 a1 a2 a3) a4 (dcolK a1)
abbrev agg2K : FVec Ideal S100000x1 .f32 :=
  aggK (C := 1) scatter_S100000x1_S1700000x1_S1700000x1_1_0_0_1_wf gather_S100000x1_S1700000x1_S1700000x1_1_0_n_n_0_1_11_wf
    bcast_S_S100000x1 bcast_S1700000_S1700000x1_0 bcast_S_S1700000 (colK a1) (rowK a1) (u2K a0 a1 a2 a3 a4)
def outK : FVec Ideal S100000x1 .f32 := Region3.G (agg2K a0 a1 a2 a3 a4) (dcolK a1) (shapeCast S1x1 a5 shapeCasts_S1_S1x1)

end Spec

/-! ## The walk -/

variable (m : (ℓ : Loc nD τ sig) → Buf (Elt Ideal) ℓ) (ρ : Dev nD → PrngReg) (c : Dev nD)

/-- The six argument arrays as launched. -/
abbrev arr0 : FVec Ideal S100000x64 .f32 := m ((c.tc : Thread nD τ).loc main_arg0)
abbrev arr1 : IVec S2x1600000 32 := m ((c.tc : Thread nD τ).loc main_arg1)
abbrev arr2 : FVec Ideal S64x128 .f32 := m ((c.tc : Thread nD τ).loc main_arg2)
abbrev arr3 : FVec Ideal S128 .f32 := m ((c.tc : Thread nD τ).loc main_arg3)
abbrev arr4 : FVec Ideal S128x1 .f32 := m ((c.tc : Thread nD τ).loc main_arg4)
abbrev arr5 : FVec Ideal S1 .f32 := m ((c.tc : Thread nD τ).loc main_arg5)

/-- What every boundary from the first region's entry on keeps: the edges' words, the inverse root degree, the last bias. -/
structure Keeps (W : Valuation τ sig (Elt Ideal)) : Prop where
  v3 : W (Proc.devRef .tc main_v3) = rowK (arr1 m c)
  v6 : W (Proc.devRef .tc main_v6) = colK (arr1 m c)
  v14 : W (Proc.devRef .tc main_v14) = dinvK (arr1 m c)
  arg5 : W (Proc.devRef .tc main_arg5) = (arr5 m c)

theorem W2_v14 : W2 m ρ c (Proc.devRef .tc main_v14) = dinvK (arr1 m c) := by
  show after hostOps0_1 (after hostOps0 (W0 m ρ c)) (Proc.devRef .tc main_v14) = _
  rw [s01_v14, s0_v12, s0_v13, s0_cst2]
  rfl

theorem keeps3 : Keeps m c (W3 m ρ c) where
  v3 := by
    show after hostOps0_2 (after hostOps0_1 (after hostOps0 (W0 m ρ c))) (Proc.devRef .tc main_v3) = _
    rw [s02_keep_v3, s01_keep_v3, s0_v3]
  v6 := by
    show after hostOps0_2 (after hostOps0_1 (after hostOps0 (W0 m ρ c))) (Proc.devRef .tc main_v6) = _
    rw [s02_keep_v6, s01_keep_v6, s0_v6]
  v14 := by
    show after hostOps0_2 (W2 m ρ c) (Proc.devRef .tc main_v14) = _
    rw [s02_keep_v14]; exact W2_v14 m ρ c
  arg5 := by
    show after hostOps0_2 (after hostOps0_1 (after hostOps0 (W0 m ρ c))) (Proc.devRef .tc main_arg5) = _
    rw [s02_keep_arg5, s01_keep_arg5, s0_keep_arg5]

theorem W3_arg0 : W3 m ρ c (Proc.devRef .tc main_arg0) = (arr0 m c) := by
  show after hostOps0_2 (after hostOps0_1 (after hostOps0 (W0 m ρ c))) (Proc.devRef .tc main_arg0) = _
  rw [s02_keep_arg0, s01_keep_arg0, s0_keep_arg0]
theorem W3_arg2 : W3 m ρ c (Proc.devRef .tc main_arg2) = (arr2 m c) := by
  show after hostOps0_2 (after hostOps0_1 (after hostOps0 (W0 m ρ c))) (Proc.devRef .tc main_arg2) = _
  rw [s02_keep_arg2, s01_keep_arg2, s0_keep_arg2]
theorem W3_arg3 : W3 m ρ c (Proc.devRef .tc main_arg3) = (arr3 m c) := by
  show after hostOps0_2 (after hostOps0_1 (after hostOps0 (W0 m ρ c))) (Proc.devRef .tc main_arg3) = _
  rw [s02_keep_arg3, s01_keep_arg3, s0_keep_arg3]
theorem W3_arg4 : W3 m ρ c (Proc.devRef .tc main_arg4) = (arr4 m c) := by
  show after hostOps0_2 (after hostOps0_1 (after hostOps0 (W0 m ρ c))) (Proc.devRef .tc main_arg4) = _
  rw [s02_keep_arg4, s01_keep_arg4, s0_keep_arg4]
theorem W3_v15 : W3 m ρ c (Proc.devRef .tc main_v15) = dcolK (arr1 m c) := by
  show after hostOps0_2 (W2 m ρ c) (Proc.devRef .tc main_v15) = _
  rw [s02_v15, W2_v14]

/-- After the first region. -/
theorem keeps4 : Keeps m c (W4 m ρ c) where
  v3 := (W4_of_ne m ρ c main_v3 (by decide)).trans (keeps3 m ρ c).v3
  v6 := (W4_of_ne m ρ c main_v6 (by decide)).trans (keeps3 m ρ c).v6
  v14 := (W4_of_ne m ρ c main_v14 (by decide)).trans (keeps3 m ρ c).v14
  arg5 := (W4_of_ne m ρ c main_arg5 (by decide)).trans (keeps3 m ρ c).arg5

theorem W4_v16 : W4 m ρ c (Proc.devRef .tc main_v16) = u1K (arr0 m c) (arr1 m c) (arr2 m c) := by
  refine (W4_arr m ρ c 3).trans ((Region0.final (V3 m ρ) c).trans ?_)
  show Region0.G (W3 m ρ c (Proc.devRef .tc main_arg0)) (W3 m ρ c (Proc.devRef .tc main_arg2)) (W3 m ρ c (Proc.devRef .tc main_v15)) = _
  rw [W3_arg0, W3_arg2, W3_v15]
theorem W4_arg3 : W4 m ρ c (Proc.devRef .tc main_arg3) = (arr3 m c) := (W4_of_ne m ρ c main_arg3 (by decide)).trans (W3_arg3 m ρ c)
theorem W4_arg4 : W4 m ρ c (Proc.devRef .tc main_arg4) = (arr4 m c) := (W4_of_ne m ρ c main_arg4 (by decide)).trans (W3_arg4 m ρ c)

/-- At the second region's entry. -/
theorem keeps5 : Keeps m c (W5 m ρ c) where
  v3 := (s1_keep_v3 (W4 m ρ c)).trans (keeps4 m ρ c).v3
  v6 := (s1_keep_v6 (W4 m ρ c)).trans (keeps4 m ρ c).v6
  v14 := (s1_keep_v14 (W4 m ρ c)).trans (keeps4 m ρ c).v14
  arg5 := (s1_keep_arg5 (W4 m ρ c)).trans (keeps4 m ρ c).arg5

theorem W5_v26 : W5 m ρ c (Proc.devRef .tc main_v26) = agg1K (arr0 m c) (arr1 m c) (arr2 m c) := by
  show after hostOps1 (W4 m ρ c) (Proc.devRef .tc main_v26) = _
  rw [s1_v26, (keeps4 m ρ c).v6, (keeps4 m ρ c).v3, W4_v16]
theorem W5_v27 : W5 m ρ c (Proc.devRef .tc main_v27) = dcolK (arr1 m c) := by
  show after hostOps1 (W4 m ρ c) (Proc.devRef .tc main_v27) = _
  rw [s1_v27, (keeps4 m ρ c).v14]
theorem W5_v28 : W5 m ρ c (Proc.devRef .tc main_v28) = shapeCast S1x128 (arr3 m c) shapeCasts_S128_S1x128 := by
  show after hostOps1 (W4 m ρ c) (Proc.devRef .tc main_v28) = _
  rw [s1_v28, W4_arg3]
theorem W5_arg4 : W5 m ρ c (Proc.devRef .tc main_arg4) = (arr4 m c) := (s1_keep_arg4 (W4 m ρ c)).trans (W4_arg4 m ρ c)

/-- After the second region. -/
theorem keeps6 : Keeps m c (W6 m ρ c) where
  v3 := (W6_of_ne m ρ c main_v3 (by decide)).trans (keeps5 m ρ c).v3
  v6 := (W6_of_ne m ρ c main_v6 (by decide)).trans (keeps5 m ρ c).v6
  v14 := (W6_of_ne m ρ c main_v14 (by decide)).trans (keeps5 m ρ c).v14
  arg5 := (W6_of_ne m ρ c main_arg5 (by decide)).trans (keeps5 m ρ c).arg5

theorem W6_v29 : W6 m ρ c (Proc.devRef .tc main_v29) = hK (arr0 m c) (arr1 m c) (arr2 m c) (arr3 m c) := by
  refine (W6_arr m ρ c 3).trans ((Region1.final (V5 m ρ) c).trans ?_)
  show Region1.G (W5 m ρ c (Proc.devRef .tc main_v26)) (W5 m ρ c (Proc.devRef .tc main_v27)) (W5 m ρ c (Proc.devRef .tc main_v28)) = _
  rw [W5_v26, W5_v27, W5_v28]
theorem W6_arg4 : W6 m ρ c (Proc.devRef .tc main_arg4) = (arr4 m c) := (W6_of_ne m ρ c main_arg4 (by decide)).trans (W5_arg4 m ρ c)

/-- At the third region's entry. -/
theorem keeps7 : Keeps m c (W7 m ρ c) where
  v3 := (s2_keep_v3 (W6 m ρ c)).trans (keeps6 m ρ c).v3
  v6 := (s2_keep_v6 (W6 m ρ c)).trans (keeps6 m ρ c).v6
  v14 := (s2_keep_v14 (W6 m ρ c)).trans (keeps6 m ρ c).v14
  arg5 := (s2_keep_arg5 (W6 m ρ c)).trans (keeps6 m ρ c).arg5

theorem W7_v29 : W7 m ρ c (Proc.devRef .tc main_v29) = hK (arr0 m c) (arr1 m c) (arr2 m c) (arr3 m c) := (s2_keep_v29 (W6 m ρ c)).trans (W6_v29 m ρ c)
theorem W7_arg4 : W7 m ρ c (Proc.devRef .tc main_arg4) = (arr4 m c) := (s2_keep_arg4 (W6 m ρ c)).trans (W6_arg4 m ρ c)
theorem W7_v30 : W7 m ρ c (Proc.devRef .tc main_v30) = dcolK (arr1 m c) := by
  show after hostOps2 (W6 m ρ c) (Proc.devRef .tc main_v30) = _
  rw [s2_v30, (keeps6 m ρ c).v14]

/-- After the third region. -/
theorem keeps8 : Keeps m c (W8 m ρ c) where
  v3 := (W8_of_ne m ρ c main_v3 (by decide)).trans (keeps7 m ρ c).v3
  v6 := (W8_of_ne m ρ c main_v6 (by decide)).trans (keeps7 m ρ c).v6
  v14 := (W8_of_ne m ρ c main_v14 (by decide)).trans (keeps7 m ρ c).v14
  arg5 := (W8_of_ne m ρ c main_arg5 (by decide)).trans (keeps7 m ρ c).arg5

theorem W8_v31 : W8 m ρ c (Proc.devRef .tc main_v31) = u2K (arr0 m c) (arr1 m c) (arr2 m c) (arr3 m c) (arr4 m c) := by
  refine (W8_arr m ρ c 3).trans ((Region2.final (V7 m ρ) c).trans ?_)
  show Region2.G (W7 m ρ c (Proc.devRef .tc main_v29)) (W7 m ρ c (Proc.devRef .tc main_arg4)) (W7 m ρ c (Proc.devRef .tc main_v30)) = _
  rw [W7_v29, W7_arg4, W7_v30]

/-- At the fourth region's entry. -/
theorem W9_v41 : W9 m ρ c (Proc.devRef .tc main_v41) = agg2K (arr0 m c) (arr1 m c) (arr2 m c) (arr3 m c) (arr4 m c) := by
  show after hostOps3 (W8 m ρ c) (Proc.devRef .tc main_v41) = _
  rw [s3_v41, (keeps8 m ρ c).v6, (keeps8 m ρ c).v3, W8_v31]
theorem W9_v42 : W9 m ρ c (Proc.devRef .tc main_v42) = dcolK (arr1 m c) := by
  show after hostOps3 (W8 m ρ c) (Proc.devRef .tc main_v42) = _
  rw [s3_v42, (keeps8 m ρ c).v14]
theorem W9_v43 : W9 m ρ c (Proc.devRef .tc main_v43) = shapeCast S1x1 (arr5 m c) shapeCasts_S1_S1x1 := by
  show after hostOps3 (W8 m ρ c) (Proc.devRef .tc main_v43) = _
  rw [s3_v43, (keeps8 m ρ c).arg5]

/-- THE RESULT ARRAY after the last region. -/
theorem W10_v44 : W10 m ρ c (Proc.devRef .tc main_v44) = outK (arr0 m c) (arr1 m c) (arr2 m c) (arr3 m c) (arr4 m c) (arr5 m c) := by
  refine (W10_arr m ρ c 3).trans ((Region3.final (V9 m ρ) c).trans ?_)
  show Region3.G (W9 m ρ c (Proc.devRef .tc main_v41)) (W9 m ρ c (Proc.devRef .tc main_v42)) (W9 m ρ c (Proc.devRef .tc main_v43)) = _
  rw [W9_v41, W9_v42, W9_v43]
  rfl

/-- The run, read: the result array at the composed function of the arguments, the arguments unchanged. -/
theorem run : θ_run defs (onTc (τ := τ) (main (F := Ideal))) ⟨m, fun _ => 0, ρ⟩ (fun r => ∀ c : Dev nD,
      r.2.mem ((c.tc : Thread nD τ).loc main_v44) = outK (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun s h c => ⟨(h c).1.trans (W10_v44 m ρ c), (h c).2⟩) (Cert.KernelIdeal.Run.run_result m ρ)

end Cert.KernelIdeal.Whole

end
-- ==== Proof.RefStretch.lean ====
/-
  The idealized reference's host operations, stretch by stretch, each read from arbitrary contents.

  @main is one line of 127 host operations, cut here before and after each outlined call. Each buffer a later stretch
  reads is stated as a function of the buffers the stretch itself reads, for ANY contents it starts from; a buffer a
  stretch does not write keeps its contents. The aggregates are named as in the neutral reading of the host side: each
  message is the gathered row scaled by the product of its edge's two gathered degree factors.
-/
import proofs.«178391_j5583457485492_1_alg».proof.Proof.RefOps
import proofs.«178391_j5583457485492_1_alg».proof.Proof.GcnRead

set_option maxRecDepth 16384

noncomputable section

namespace Cert.ReferenceIdeal.Stretch

open Cert.ReferenceIdeal Cert.ReferenceIdeal.Gen Cert.ReferenceIdeal.RefOps Cert.GcnRead
open Idealize.ShloMosaic Idealize.ShloMosaic.TcCoe Idealize.SL.Sem Idealize.ShloMosaic.StableHlo

/-! ## Stretch 1: the edges' words, the first product, the degree -/

theorem r1_v3 (W : Valuation τ sig (Elt Ideal)) :
    after (ops1 (F := Ideal)) W (Proc.devRef .tc main_v3) = rowT slices_S2x1600000_S1x1600000_0_0 shapeCasts_S1x1600000_S1600000 concatenates_S1600000_S100000_S1700000_d0 (W (Proc.devRef .tc main_arg1)) := by
  dsimp only [ops1]; after_results; rfl

theorem r1_v6 (W : Valuation τ sig (Elt Ideal)) :
    after (ops1 (F := Ideal)) W (Proc.devRef .tc main_v6) = colT slices_S2x1600000_S1x1600000_1_0 shapeCasts_S1x1600000_S1600000 concatenates_S1600000_S100000_S1700000_d0 (W (Proc.devRef .tc main_arg1)) := by
  dsimp only [ops1]; after_results; rfl

theorem r1_v8 (W : Valuation τ sig (Elt Ideal)) :
    after (ops1 (F := Ideal)) W (Proc.devRef .tc main_v8)
      = Host.dotGeneral (F := Ideal) (φ₁ := .f32) (φ₂ := .f32) dot_S100000x64_S64x128_S100000x128_1_0_0_1_n_n none
          (Host.absf (F := Ideal) (φ := .f32) (W (Proc.devRef .tc main_arg0))) (W (Proc.devRef .tc main_arg2)) := by
  dsimp only [ops1]; after_results

theorem r1_v14 (W : Valuation τ sig (Elt Ideal)) :
    after (ops1 (F := Ideal)) W (Proc.devRef .tc main_v14)
      = cmpf .ogt (degOf scatter_S100000_S1700000x1_S1700000_n_0_0_1_wf bcast_S_S100000 bcast_S_S1700000 bcast_S1700000_S1700000x1_0 (colT slices_S2x1600000_S1x1600000_1_0 shapeCasts_S1x1600000_S1600000 concatenates_S1600000_S100000_S1700000_d0 (W (Proc.devRef .tc main_arg1)))) (zeros SN bcast_S_S100000) := by
  dsimp only [ops1]; after_results; rfl

theorem r1_v15 (W : Valuation τ sig (Elt Ideal)) :
    after (ops1 (F := Ideal)) W (Proc.devRef .tc main_v15)
      = Host.rsqrt (degOf scatter_S100000_S1700000x1_S1700000_n_0_0_1_wf bcast_S_S100000 bcast_S_S1700000 bcast_S1700000_S1700000x1_0 (colT slices_S2x1600000_S1x1600000_1_0 shapeCasts_S1x1600000_S1600000 concatenates_S1600000_S100000_S1700000_d0 (W (Proc.devRef .tc main_arg1)))) := by
  dsimp only [ops1]; after_results; rfl

theorem r1_cst2 (W : Valuation τ sig (Elt Ideal)) :
    after (ops1 (F := Ideal)) W (Proc.devRef .tc main_cst_2) = constant (F := Ideal) S_ .f32 0x00000000#32 := by
  dsimp only [ops1]; after_results

theorem r1_keep_arg3 (W : Valuation τ sig (Elt Ideal)) :
    after (ops1 (F := Ideal)) W (Proc.devRef .tc main_arg3) = W (Proc.devRef .tc main_arg3) := by
  dsimp only [ops1]; after_results

theorem r1_keep_arg4 (W : Valuation τ sig (Elt Ideal)) :
    after (ops1 (F := Ideal)) W (Proc.devRef .tc main_arg4) = W (Proc.devRef .tc main_arg4) := by
  dsimp only [ops1]; after_results

theorem r1_keep_arg5 (W : Valuation τ sig (Elt Ideal)) :
    after (ops1 (F := Ideal)) W (Proc.devRef .tc main_arg5) = W (Proc.devRef .tc main_arg5) := by
  dsimp only [ops1]; after_results

/-! ## Stretch 2: the outlined select -/

theorem r2_v16 (W : Valuation τ sig (Elt Ideal)) :
    after (ops2 (F := Ideal)) W (Proc.devRef .tc main_v16)
      = select (W (Proc.devRef .tc main_v14)) (W (Proc.devRef .tc main_v15))
          (broadcastInDim S100000 ![] bcast_S_S100000 (W (Proc.devRef .tc main_cst_2))) := by
  dsimp only [ops2]; after_results; rfl

theorem r2_keep_v3 (W : Valuation τ sig (Elt Ideal)) :
    after (ops2 (F := Ideal)) W (Proc.devRef .tc main_v3) = W (Proc.devRef .tc main_v3) := by
  dsimp only [ops2]; after_results

theorem r2_keep_v6 (W : Valuation τ sig (Elt Ideal)) :
    after (ops2 (F := Ideal)) W (Proc.devRef .tc main_v6) = W (Proc.devRef .tc main_v6) := by
  dsimp only [ops2]; after_results

theorem r2_keep_v8 (W : Valuation τ sig (Elt Ideal)) :
    after (ops2 (F := Ideal)) W (Proc.devRef .tc main_v8) = W (Proc.devRef .tc main_v8) := by
  dsimp only [ops2]; after_results

theorem r2_keep_arg3 (W : Valuation τ sig (Elt Ideal)) :
    after (ops2 (F := Ideal)) W (Proc.devRef .tc main_arg3) = W (Proc.devRef .tc main_arg3) := by
  dsimp only [ops2]; after_results

theorem r2_keep_arg4 (W : Valuation τ sig (Elt Ideal)) :
    after (ops2 (F := Ideal)) W (Proc.devRef .tc main_arg4) = W (Proc.devRef .tc main_arg4) := by
  dsimp only [ops2]; after_results

theorem r2_keep_arg5 (W : Valuation τ sig (Elt Ideal)) :
    after (ops2 (F := Ideal)) W (Proc.devRef .tc main_arg5) = W (Proc.devRef .tc main_arg5) := by
  dsimp only [ops2]; after_results

/-! ## Stretch 3: the first layer's aggregate and bias -/

set_option maxHeartbeats 1600000 in
theorem r3_v47 (W : Valuation τ sig (Elt Ideal)) :
    after (ops3 (F := Ideal)) W (Proc.devRef .tc main_v47)
      = addf (aggR128 bcast_S1700000_S1700000x1_0 bcast_S_S1700000 gather_S100000_S1700000x1_S1700000_n_0_n_n_0_1_1_wf
            scatter_S100000x128_S1700000x1_S1700000x128_1_0_0_1_wf gather_S100000x128_S1700000x1_S1700000x128_1_0_n_n_0_1_1128_wf
            bcast_S_S100000x128 bcast_S1700000x1_S1700000x128_0_1
            (W (Proc.devRef .tc main_v16)) (W (Proc.devRef .tc main_v6)) (W (Proc.devRef .tc main_v3)) (W (Proc.devRef .tc main_v8)))
          (biasR (C := 128) bcast_S128_S1x128_1 bcast_S1x128_S100000x128_0_1 (W (Proc.devRef .tc main_arg3))) := by
  dsimp only [ops3]; after_results_simp
  dsimp only [aggR128, biasR, normE, rowsAt, colOf, normOf, zeros]
  rfl

theorem r3_keep_v3 (W : Valuation τ sig (Elt Ideal)) :
    after (ops3 (F := Ideal)) W (Proc.devRef .tc main_v3) = W (Proc.devRef .tc main_v3) := by
  dsimp only [ops3]; after_results_simp

theorem r3_keep_v6 (W : Valuation τ sig (Elt Ideal)) :
    after (ops3 (F := Ideal)) W (Proc.devRef .tc main_v6) = W (Proc.devRef .tc main_v6) := by
  dsimp only [ops3]; after_results_simp

theorem r3_keep_arg4 (W : Valuation τ sig (Elt Ideal)) :
    after (ops3 (F := Ideal)) W (Proc.devRef .tc main_arg4) = W (Proc.devRef .tc main_arg4) := by
  dsimp only [ops3]; after_results_simp

theorem r3_keep_arg5 (W : Valuation τ sig (Elt Ideal)) :
    after (ops3 (F := Ideal)) W (Proc.devRef .tc main_arg5) = W (Proc.devRef .tc main_arg5) := by
  dsimp only [ops3]; after_results_simp

/-! ## Stretch 4: the outlined rectifier -/

theorem r4_v48 (W : Valuation τ sig (Elt Ideal)) :
    after (ops4 (F := Ideal)) W (Proc.devRef .tc main_v48)
      = maximumf (W (Proc.devRef .tc main_v47)) (zeros (SNC 128) bcast_S_S100000x128) := by
  dsimp only [ops4]; after_results; rfl

theorem r4_keep_v3 (W : Valuation τ sig (Elt Ideal)) :
    after (ops4 (F := Ideal)) W (Proc.devRef .tc main_v3) = W (Proc.devRef .tc main_v3) := by
  dsimp only [ops4]; after_results

theorem r4_keep_v6 (W : Valuation τ sig (Elt Ideal)) :
    after (ops4 (F := Ideal)) W (Proc.devRef .tc main_v6) = W (Proc.devRef .tc main_v6) := by
  dsimp only [ops4]; after_results

theorem r4_keep_arg4 (W : Valuation τ sig (Elt Ideal)) :
    after (ops4 (F := Ideal)) W (Proc.devRef .tc main_arg4) = W (Proc.devRef .tc main_arg4) := by
  dsimp only [ops4]; after_results

theorem r4_keep_arg5 (W : Valuation τ sig (Elt Ideal)) :
    after (ops4 (F := Ideal)) W (Proc.devRef .tc main_arg5) = W (Proc.devRef .tc main_arg5) := by
  dsimp only [ops4]; after_results

/-! ## Stretch 5: the second product, the degree again -/

theorem r5_v49 (W : Valuation τ sig (Elt Ideal)) :
    after (ops5 (F := Ideal)) W (Proc.devRef .tc main_v49)
      = Host.dotGeneral (F := Ideal) (φ₁ := .f32) (φ₂ := .f32) dot_S100000x128_S128x1_S100000x1_1_0_0_1_n_n none
          (W (Proc.devRef .tc main_v48)) (W (Proc.devRef .tc main_arg4)) := by
  dsimp only [ops5]; after_results

theorem r5_v55 (W : Valuation τ sig (Elt Ideal)) :
    after (ops5 (F := Ideal)) W (Proc.devRef .tc main_v55)
      = cmpf .ogt (degOf scatter_S100000_S1700000x1_S1700000_n_0_0_1_wf bcast_S_S100000 bcast_S_S1700000 bcast_S1700000_S1700000x1_0 (W (Proc.devRef .tc main_v6))) (zeros SN bcast_S_S100000) := by
  dsimp only [ops5]; after_results; rfl

theorem r5_v56 (W : Valuation τ sig (Elt Ideal)) :
    after (ops5 (F := Ideal)) W (Proc.devRef .tc main_v56)
      = Host.rsqrt (degOf scatter_S100000_S1700000x1_S1700000_n_0_0_1_wf bcast_S_S100000 bcast_S_S1700000 bcast_S1700000_S1700000x1_0 (W (Proc.devRef .tc main_v6))) := by
  dsimp only [ops5]; after_results; rfl

theorem r5_cst12 (W : Valuation τ sig (Elt Ideal)) :
    after (ops5 (F := Ideal)) W (Proc.devRef .tc main_cst_12) = constant (F := Ideal) S_ .f32 0x00000000#32 := by
  dsimp only [ops5]; after_results

theorem r5_keep_v3 (W : Valuation τ sig (Elt Ideal)) :
    after (ops5 (F := Ideal)) W (Proc.devRef .tc main_v3) = W (Proc.devRef .tc main_v3) := by
  dsimp only [ops5]; after_results

theorem r5_keep_v6 (W : Valuation τ sig (Elt Ideal)) :
    after (ops5 (F := Ideal)) W (Proc.devRef .tc main_v6) = W (Proc.devRef .tc main_v6) := by
  dsimp only [ops5]; after_results

theorem r5_keep_arg5 (W : Valuation τ sig (Elt Ideal)) :
    after (ops5 (F := Ideal)) W (Proc.devRef .tc main_arg5) = W (Proc.devRef .tc main_arg5) := by
  dsimp only [ops5]; after_results

/-! ## Stretch 6: the outlined select again -/

theorem r6_v57 (W : Valuation τ sig (Elt Ideal)) :
    after (ops6 (F := Ideal)) W (Proc.devRef .tc main_v57)
      = select (W (Proc.devRef .tc main_v55)) (W (Proc.devRef .tc main_v56))
          (broadcastInDim S100000 ![] bcast_S_S100000 (W (Proc.devRef .tc main_cst_12))) := by
  dsimp only [ops6]; after_results; rfl

theorem r6_keep_v3 (W : Valuation τ sig (Elt Ideal)) :
    after (ops6 (F := Ideal)) W (Proc.devRef .tc main_v3) = W (Proc.devRef .tc main_v3) := by
  dsimp only [ops6]; after_results

theorem r6_keep_v6 (W : Valuation τ sig (Elt Ideal)) :
    after (ops6 (F := Ideal)) W (Proc.devRef .tc main_v6) = W (Proc.devRef .tc main_v6) := by
  dsimp only [ops6]; after_results

theorem r6_keep_v49 (W : Valuation τ sig (Elt Ideal)) :
    after (ops6 (F := Ideal)) W (Proc.devRef .tc main_v49) = W (Proc.devRef .tc main_v49) := by
  dsimp only [ops6]; after_results

theorem r6_keep_arg5 (W : Valuation τ sig (Elt Ideal)) :
    after (ops6 (F := Ideal)) W (Proc.devRef .tc main_arg5) = W (Proc.devRef .tc main_arg5) := by
  dsimp only [ops6]; after_results

/-! ## Stretch 7: the second layer's aggregate and bias -/

set_option maxHeartbeats 1600000 in
theorem r7_v87 (W : Valuation τ sig (Elt Ideal)) :
    after (ops7 (F := Ideal)) W (Proc.devRef .tc main_v87)
      = addf (aggR1 bcast_S1700000_S1700000x1_0 bcast_S_S1700000 gather_S100000_S1700000x1_S1700000_n_0_n_n_0_1_1_wf
            scatter_S100000x1_S1700000x1_S1700000x1_1_0_0_1_wf gather_S100000x1_S1700000x1_S1700000x1_1_0_n_n_0_1_11_wf
            bcast_S_S100000x1
            (W (Proc.devRef .tc main_v57)) (W (Proc.devRef .tc main_v6)) (W (Proc.devRef .tc main_v3)) (W (Proc.devRef .tc main_v49)))
          (biasR (C := 1) bcast_S1_S1x1_1 bcast_S1x1_S100000x1_0_1 (W (Proc.devRef .tc main_arg5))) := by
  dsimp only [ops7]; after_results_simp
  dsimp only [aggR1, biasR, normE, rowsAt, colOf, normOf, zeros]
  rfl

/-! ## Stretch 8: the outlined rectifier again -/

theorem r8_v88 (W : Valuation τ sig (Elt Ideal)) :
    after (ops8 (F := Ideal)) W (Proc.devRef .tc main_v88)
      = maximumf (W (Proc.devRef .tc main_v87)) (zeros (SNC 1) bcast_S_S100000x1) := by
  dsimp only [ops8]; after_results; rfl

/-! ## Stretch 9: the logistic, spelt out -/

theorem r9_v94 (W : Valuation τ sig (Elt Ideal)) :
    after (ops9 (F := Ideal)) W (Proc.devRef .tc main_v94)
      = Host.divf (ones (SNC 1) bcast_S_S100000x1) (addf (ones (SNC 1) bcast_S_S100000x1) (Host.exp (Host.negf (W (Proc.devRef .tc main_v88))))) := by
  dsimp only [ops9]; after_results; rfl

end Cert.ReferenceIdeal.Stretch

end
-- ==== Proof.LibAfterAppend.lean ====
/-
  A straight line of host operations run in two stretches: the fold of the operations' results over a valuation
  (`StableHlo.after`) of a concatenation is the fold of the second stretch over the fold of the first. It lets a
  long line be read stretch by stretch, each against an arbitrary valuation.
-/
import Idealize.ShloMosaic.Lib.StableHlo.Run

namespace Idealize.ShloMosaic.StableHlo

variable {τ : Topo} {sig : RefSig} {Val : EltTy → Type}

/-- The results after `a ++ b` are the results after `b` of the results after `a`. -/
theorem after_append (a b : List (HloOp τ sig Val)) (V : Valuation τ sig Val) :
    after (a ++ b) V = after b (after a V) := by
  induction a generalizing V with
  | nil => rfl
  | cons op a ih => exact ih (op.result V)

end Idealize.ShloMosaic.StableHlo
-- ==== Proof.RefValue.lean ====
/-
  The idealized reference's result array as one function of its argument arrays.

  Walking the nine stretches from the launch memory: the edges' words and the arguments are carried unchanged; the
  inverse root degree is computed twice from the same target words, to the same term; each layer's aggregate is the
  scatter-add of the gathered rows, each scaled by the product of its edge's two gathered degree factors. Composed:

      h = max (agg' (|x| W₁) + b₁, 0),   out = 1 / (1 + exp (−max (agg' (h W₂) + b₂, 0))).
-/
import proofs.«178391_j5583457485492_1_alg».proof.Proof.RefStretch
import proofs.«178391_j5583457485492_1_alg».proof.Proof.LibAfterAppend

set_option maxRecDepth 16384

noncomputable section

namespace Cert.ReferenceIdeal.Whole

open Cert.ReferenceIdeal Cert.ReferenceIdeal.Gen Cert.ReferenceIdeal.RefOps Cert.ReferenceIdeal.Stretch Cert.GcnRead
open Idealize.ShloMosaic Idealize.ShloMosaic.TcCoe Idealize.SL.Sem Idealize.ShloMosaic.StableHlo

/-! ## The composed function -/

section Spec
variable (a0 : FVec Ideal S100000x64 .f32) (a1 : IVec S2x1600000 32) (a2 : FVec Ideal S64x128 .f32)
  (a3 : FVec Ideal S128 .f32) (a4 : FVec Ideal S128x1 .f32) (a5 : FVec Ideal S1 .f32)

abbrev rowR : IVec S1700000 32 := rowT slices_S2x1600000_S1x1600000_0_0 shapeCasts_S1x1600000_S1600000 concatenates_S1600000_S100000_S1700000_d0 a1
abbrev colR : IVec S1700000 32 := colT slices_S2x1600000_S1x1600000_1_0 shapeCasts_S1x1600000_S1600000 concatenates_S1600000_S100000_S1700000_d0 a1
abbrev dinvR : FVec Ideal S100000 .f32 := dinvOf scatter_S100000_S1700000x1_S1700000_n_0_0_1_wf bcast_S_S100000 bcast_S_S1700000 bcast_S1700000_S1700000x1_0 (colR a1)
/-- The first layer: the product, the scaled aggregate plus the bias, the hidden features. -/
abbrev xwR : FVec Ideal S100000x128 .f32 := Host.dotGeneral (F := Ideal) (φ₁ := .f32) (φ₂ := .f32) dot_S100000x64_S64x128_S100000x128_1_0_0_1_n_n none (Host.absf (F := Ideal) (φ := .f32) a0) a2
abbrev pre1R : FVec Ideal S100000x128 .f32 :=
  addf (aggR128 bcast_S1700000_S1700000x1_0 bcast_S_S1700000 gather_S100000_S1700000x1_S1700000_n_0_n_n_0_1_1_wf
      scatter_S100000x128_S1700000x1_S1700000x128_1_0_0_1_wf gather_S100000x128_S1700000x1_S1700000x128_1_0_n_n_0_1_1128_wf
      bcast_S_S100000x128 bcast_S1700000x1_S1700000x128_0_1
      (dinvR a1) (colR a1) (rowR a1) (xwR a0 a2))
    (biasR (C := 128) bcast_S128_S1x128_1 bcast_S1x128_S100000x128_0_1 a3)
abbrev hR : FVec Ideal S100000x128 .f32 := maximumf (pre1R a0 a1 a2 a3) (zeros (SNC 128) bcast_S_S100000x128)
/-- The second layer, and the logistic spelt out. -/
abbrev hwR : FVec Ideal S100000x1 .f32 := Host.dotGeneral (F := Ideal) (φ₁ := .f32) (φ₂ := .f32) dot_S100000x128_S128x1_S100000x1_1_0_0_1_n_n none (hR a0 a1 a2 a3) a4
abbrev pre2R : FVec Ideal S100000x1 .f32 :=
  addf (aggR1 bcast_S1700000_S1700000x1_0 bcast_S_S1700000 gather_S100000_S1700000x1_S1700000_n_0_n_n_0_1_1_wf
      scatter_S100000x1_S1700000x1_S1700000x1_1_0_0_1_wf gather_S100000x1_S1700000x1_S1700000x1_1_0_n_n_0_1_11_wf
      bcast_S_S100000x1
      (dinvR a1) (colR a1) (rowR a1) (hwR a0 a1 a2 a3 a4))
    (biasR (C := 1) bcast_S1_S1x1_1 bcast_S1x1_S100000x1_0_1 a5)
abbrev h2R : FVec Ideal S100000x1 .f32 := maximumf (pre2R a0 a1 a2 a3 a4 a5) (zeros (SNC 1) bcast_S_S100000x1)
def outR : FVec Ideal S100000x1 .f32 :=
  Host.divf (ones (SNC 1) bcast_S_S100000x1) (addf (ones (SNC 1) bcast_S_S100000x1) (Host.exp (Host.negf (h2R a0 a1 a2 a3 a4 a5))))

end Spec

/-! ## The walk -/

variable (m : (ℓ : Loc nD τ sig) → Buf (Elt Ideal) ℓ) (c : Dev nD)

/-- The six argument arrays as launched. -/
abbrev arr0 : FVec Ideal S100000x64 .f32 := m ((c.tc : Thread nD τ).loc main_arg0)
abbrev arr1 : IVec S2x1600000 32 := m ((c.tc : Thread nD τ).loc main_arg1)
abbrev arr2 : FVec Ideal S64x128 .f32 := m ((c.tc : Thread nD τ).loc main_arg2)
abbrev arr3 : FVec Ideal S128 .f32 := m ((c.tc : Thread nD τ).loc main_arg3)
abbrev arr4 : FVec Ideal S128x1 .f32 := m ((c.tc : Thread nD τ).loc main_arg4)
abbrev arr5 : FVec Ideal S1 .f32 := m ((c.tc : Thread nD τ).loc main_arg5)

/-- The contents after each stretch. -/
abbrev R1 : Valuation τ sig (Elt Ideal) := after ops1 (launchContents m c)
abbrev R2 : Valuation τ sig (Elt Ideal) := after ops2 (R1 m c)
abbrev R3 : Valuation τ sig (Elt Ideal) := after ops3 (R2 m c)
abbrev R4 : Valuation τ sig (Elt Ideal) := after ops4 (R3 m c)
abbrev R5 : Valuation τ sig (Elt Ideal) := after ops5 (R4 m c)
abbrev R6 : Valuation τ sig (Elt Ideal) := after ops6 (R5 m c)
abbrev R7 : Valuation τ sig (Elt Ideal) := after ops7 (R6 m c)
abbrev R8 : Valuation τ sig (Elt Ideal) := after ops8 (R7 m c)

/-- What every boundary keeps: the edges' words and the last bias. -/
structure Keeps (W : Valuation τ sig (Elt Ideal)) : Prop where
  v3 : W (Proc.devRef .tc main_v3) = rowR (arr1 m c)
  v6 : W (Proc.devRef .tc main_v6) = colR (arr1 m c)
  arg5 : W (Proc.devRef .tc main_arg5) = arr5 m c

theorem keeps1 : Keeps m c (R1 m c) where
  v3 := r1_v3 _
  v6 := r1_v6 _
  arg5 := r1_keep_arg5 _
theorem keeps2 : Keeps m c (R2 m c) where
  v3 := (r2_keep_v3 _).trans (keeps1 m c).v3
  v6 := (r2_keep_v6 _).trans (keeps1 m c).v6
  arg5 := (r2_keep_arg5 _).trans (keeps1 m c).arg5
theorem keeps3 : Keeps m c (R3 m c) where
  v3 := (r3_keep_v3 _).trans (keeps2 m c).v3
  v6 := (r3_keep_v6 _).trans (keeps2 m c).v6
  arg5 := (r3_keep_arg5 _).trans (keeps2 m c).arg5
theorem keeps4 : Keeps m c (R4 m c) where
  v3 := (r4_keep_v3 _).trans (keeps3 m c).v3
  v6 := (r4_keep_v6 _).trans (keeps3 m c).v6
  arg5 := (r4_keep_arg5 _).trans (keeps3 m c).arg5
theorem keeps5 : Keeps m c (R5 m c) where
  v3 := (r5_keep_v3 _).trans (keeps4 m c).v3
  v6 := (r5_keep_v6 _).trans (keeps4 m c).v6
  arg5 := (r5_keep_arg5 _).trans (keeps4 m c).arg5
theorem keeps6 : Keeps m c (R6 m c) where
  v3 := (r6_keep_v3 _).trans (keeps5 m c).v3
  v6 := (r6_keep_v6 _).trans (keeps5 m c).v6
  arg5 := (r6_keep_arg5 _).trans (keeps5 m c).arg5

theorem R2_arg3 : R2 m c (Proc.devRef .tc main_arg3) = arr3 m c := (r2_keep_arg3 _).trans (r1_keep_arg3 _)
theorem R4_arg4 : R4 m c (Proc.devRef .tc main_arg4) = arr4 m c :=
  (r4_keep_arg4 _).trans ((r3_keep_arg4 _).trans ((r2_keep_arg4 _).trans (r1_keep_arg4 _)))

theorem R2_v8 : R2 m c (Proc.devRef .tc main_v8) = xwR (arr0 m c) (arr2 m c) := (r2_keep_v8 _).trans (r1_v8 _)

theorem R2_v16 : R2 m c (Proc.devRef .tc main_v16) = dinvR (arr1 m c) := by
  show after ops2 (after ops1 (launchContents m c)) (Proc.devRef .tc main_v16) = _
  rw [r2_v16, r1_v14, r1_v15, r1_cst2]
  rfl

theorem R3_v47 : R3 m c (Proc.devRef .tc main_v47) = pre1R (arr0 m c) (arr1 m c) (arr2 m c) (arr3 m c) := by
  show after ops3 (R2 m c) (Proc.devRef .tc main_v47) = _
  rw [r3_v47, R2_v16, (keeps2 m c).v6, (keeps2 m c).v3, R2_v8, R2_arg3]

theorem R4_v48 : R4 m c (Proc.devRef .tc main_v48) = hR (arr0 m c) (arr1 m c) (arr2 m c) (arr3 m c) := by
  show after ops4 (R3 m c) (Proc.devRef .tc main_v48) = _
  rw [r4_v48, R3_v47]

theorem R5_v49 : R5 m c (Proc.devRef .tc main_v49) = hwR (arr0 m c) (arr1 m c) (arr2 m c) (arr3 m c) (arr4 m c) := by
  show after ops5 (R4 m c) (Proc.devRef .tc main_v49) = _
  rw [r5_v49, R4_v48, R4_arg4]

theorem R6_v57 : R6 m c (Proc.devRef .tc main_v57) = dinvR (arr1 m c) := by
  show after ops6 (after ops5 (R4 m c)) (Proc.devRef .tc main_v57) = _
  rw [r6_v57, r5_v55, r5_v56, r5_cst12, (keeps4 m c).v6]
  rfl

theorem R6_v49 : R6 m c (Proc.devRef .tc main_v49) = hwR (arr0 m c) (arr1 m c) (arr2 m c) (arr3 m c) (arr4 m c) :=
  (r6_keep_v49 _).trans (R5_v49 m c)

theorem R7_v87 : R7 m c (Proc.devRef .tc main_v87)
    = pre2R (arr0 m c) (arr1 m c) (arr2 m c) (arr3 m c) (arr4 m c) (arr5 m c) := by
  show after ops7 (R6 m c) (Proc.devRef .tc main_v87) = _
  rw [r7_v87, R6_v57, (keeps6 m c).v6, (keeps6 m c).v3, R6_v49, (keeps6 m c).arg5]

theorem R8_v88 : R8 m c (Proc.devRef .tc main_v88)
    = h2R (arr0 m c) (arr1 m c) (arr2 m c) (arr3 m c) (arr4 m c) (arr5 m c) := by
  show after ops8 (R7 m c) (Proc.devRef .tc main_v88) = _
  rw [r8_v88, R7_v87]

/-- THE RESULT ARRAY after the line. -/
theorem final_v94 : after (ops (F := Ideal)) (launchContents m c) (Proc.devRef .tc main_v94)
    = outR (arr0 m c) (arr1 m c) (arr2 m c) (arr3 m c) (arr4 m c) (arr5 m c) := by
  rw [ops_eq, after_append, after_append, after_append, after_append, after_append, after_append, after_append, after_append]
  show after ops9 (R8 m c) (Proc.devRef .tc main_v94) = _
  rw [r9_v94, R8_v88]
  rfl

/-- An argument array is written by no operation of the line, so it ends as launched. -/
theorem kept (b : Ref sig .tc)
    (hb : (ops (F := Ideal)).Forall fun op => (Proc.devRef (τ := τ) .tc b) ∉ op.writes) :
    after (ops (F := Ideal)) (launchContents m c) (Proc.devRef .tc b) = m ((c.tc : Thread nD τ).loc b) :=
  (StableHlo.after_of_forall_not_mem (b := Proc.devRef .tc b) _ _ (List.forall_iff_forall_mem.mp hb)).trans rfl

/-- Deciding that over the 127 operations: each writes one buffer, none of them the argument. -/
macro "no_op_writes" : tactic =>
  `(tactic| (simp only [ops, List.Forall, StableHlo.nullary_writes, StableHlo.unary_writes, StableHlo.binary_writes, StableHlo.ternary_writes, StableHlo.quaternary_writes, StableHlo.reshape_writes, StableHlo.binaryIndexed_writes, Finset.mem_singleton]; (repeat' apply And.intro); all_goals exact StableHlo.devRef_ne_of_ne (by decide)))

set_option maxHeartbeats 1000000 in
theorem kept_arg0 : after (ops (F := Ideal)) (launchContents m c) (Proc.devRef .tc main_arg0) = m ((c.tc : Thread nD τ).loc main_arg0) :=
  kept m c main_arg0 (by no_op_writes)
set_option maxHeartbeats 1000000 in
theorem kept_arg1 : after (ops (F := Ideal)) (launchContents m c) (Proc.devRef .tc main_arg1) = m ((c.tc : Thread nD τ).loc main_arg1) :=
  kept m c main_arg1 (by no_op_writes)
set_option maxHeartbeats 1000000 in
theorem kept_arg2 : after (ops (F := Ideal)) (launchContents m c) (Proc.devRef .tc main_arg2) = m ((c.tc : Thread nD τ).loc main_arg2) :=
  kept m c main_arg2 (by no_op_writes)
set_option maxHeartbeats 1000000 in
theorem kept_arg3 : after (ops (F := Ideal)) (launchContents m c) (Proc.devRef .tc main_arg3) = m ((c.tc : Thread nD τ).loc main_arg3) :=
  kept m c main_arg3 (by no_op_writes)
set_option maxHeartbeats 1000000 in
theorem kept_arg4 : after (ops (F := Ideal)) (launchContents m c) (Proc.devRef .tc main_arg4) = m ((c.tc : Thread nD τ).loc main_arg4) :=
  kept m c main_arg4 (by no_op_writes)
set_option maxHeartbeats 1000000 in
theorem kept_arg5 : after (ops (F := Ideal)) (launchContents m c) (Proc.devRef .tc main_arg5) = m ((c.tc : Thread nD τ).loc main_arg5) :=
  kept m c main_arg5 (by no_op_writes)

/-- The run, read: the result array at the composed function of the arguments, the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v94) = outR (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v94).trans (final_v94 m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c)⟩)
    (run_after m ρ)

end Cert.ReferenceIdeal.Whole

end
-- ==== Proof.Bridge.lean ====
/-
  The two composed functions are one function.

  Index by index, the kernel's layer is max ((0 + Σ_e [col e = n] · (T (row e) · d (row e))) · d n + b, 0) and the reference's
  max ((0 + Σ_e [col e = n] · ((d (row e) · d (col' e)) · T (row e))) + b, 0), over the same edge words and the same inverse
  root degree d. They agree by the layer's law: d n lies in [0, ⊤), so it moves inside the sum, and an edge that lands on
  n has col' e = n. The first layer's table T is the product |x| W₁ on both sides (the kernel's block products and the host's
  one product are the same sums); the hidden features then agree as whole arrays, so the second layer's table h W₂ does
  too; and the kernel's logistic is by definition the reference's 1 / (1 + exp (−·)).
-/
import proofs.«178391_j5583457485492_1_alg».proof.Proof.KernelValue
import proofs.«178391_j5583457485492_1_alg».proof.Proof.RefValue
import Idealize.ShloMosaic.Lib.IdealHost
import Idealize.ShloMosaic.Lib.ValueLayout

set_option maxRecDepth 16384

noncomputable section

namespace Cert.Bridge

open Cert.GcnRead Idealize.ShloMosaic Idealize.ShloMosaic.ValueIdx

/-- The array of ones reads 1. -/
theorem one_word : Ideal.ofBits .f32 0x3F800000#32 = 1 := by
  simp [Ideal.ofBits, Ideal.ieee, -EReal.coe_mul]; norm_num

theorem ones_apply (s : Shape) (hz) (i : s.Idx) : ones s hz i = 1 :=
  (broadcastInDim_apply _ hz (constant (F := Ideal) S0 .f32 0x3F800000#32) i (fun a => a.elim0) (fun a => a.elim0)).trans
    one_word

/-- The host's spelling of the logistic, at an index. -/
theorem host_logistic_apply {s : Shape} (O X : FVec Ideal s .f32) (i : s.Idx) :
    Host.divf O (addf O (Host.exp (Host.negf X))) i = Ideal.div (O i) (O i + Ideal.exp (-(X i))) := rfl

theorem maximumf_apply {s : Shape} (X Z : FVec Ideal s .f32) (i : s.Idx) : maximumf X Z i = max (X i) (Z i) := rfl
theorem addf_apply' {s : Shape} (X Z : FVec Ideal s .f32) (i : s.Idx) : addf X Z i = X i + Z i := rfl

/-- The kernel's last region at a row, and its second at an entry. -/
theorem G3_apply (A0 A1 : Cert.KernelIdeal.S100000x1.Idx → EReal) (A2 : Cert.KernelIdeal.S1x1.Idx → EReal) (n : Fin 100000) (u : Fin 1) :
    Cert.KernelIdeal.Region3.G A0 A1 A2 (ix2 n u)
      = Ideal.logistic (max (A0 (ix2 n u) * A1 (ix2 n u) + A2 (ix2 (0 : Fin 1) u)) (Ideal.ofBits .f32 0x00000000#32)) := rfl
theorem G1_apply (A0 : Cert.KernelIdeal.S100000x128.Idx → EReal) (A1 : Cert.KernelIdeal.S100000x1.Idx → EReal)
    (A2 : Cert.KernelIdeal.S1x128.Idx → EReal) (n : Fin 100000) (k : Fin 128) :
    Cert.KernelIdeal.Region1.G A0 A1 A2 (ix2 n k)
      = max (A0 (ix2 n k) * A1 (ix2 n (0 : Fin 1)) + A2 (ix2 (0 : Fin 1) k)) (Ideal.ofBits .f32 0x00000000#32) := rfl

/-! ## The host's two products, read at an entry -/

theorem d1_l0 (i : Cert.ReferenceIdeal.S100000x128.Idx) (q : Cert.ReferenceIdeal.dot_S100000x64_S64x128_S100000x128_1_0_0_1_n_n.contr.Idx) : (Cert.ReferenceIdeal.dot_S100000x64_S64x128_S100000x128_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x128_S100000x128_1_0_0_1_n_n.lhsBatch by decide), dif_pos (show (0 : Fin Cert.ReferenceIdeal.S100000x64.rank) ∈ Cert.ReferenceIdeal.dot_S100000x64_S64x128_S100000x128_1_0_0_1_n_n.lhsNonContracting by decide)]
  rfl
theorem d1_l1 (i : Cert.ReferenceIdeal.S100000x128.Idx) (q : Cert.ReferenceIdeal.dot_S100000x64_S64x128_S100000x128_1_0_0_1_n_n.contr.Idx) : (Cert.ReferenceIdeal.dot_S100000x64_S64x128_S100000x128_1_0_0_1_n_n.lhsIdx i q 1).val = (q ⟨0, by decide⟩).val :=
  Cert.ReferenceIdeal.dot_S100000x64_S64x128_S100000x128_1_0_0_1_n_n.lhsIdx_val_of_single rfl i q
theorem d1_r0 (i : Cert.ReferenceIdeal.S100000x128.Idx) (q : Cert.ReferenceIdeal.dot_S100000x64_S64x128_S100000x128_1_0_0_1_n_n.contr.Idx) : (Cert.ReferenceIdeal.dot_S100000x64_S64x128_S100000x128_1_0_0_1_n_n.rhsIdx i q 0).val = (q ⟨0, by decide⟩).val :=
  Cert.ReferenceIdeal.dot_S100000x64_S64x128_S100000x128_1_0_0_1_n_n.rhsIdx_val_of_single rfl i q
theorem d1_r1 (i : Cert.ReferenceIdeal.S100000x128.Idx) (q : Cert.ReferenceIdeal.dot_S100000x64_S64x128_S100000x128_1_0_0_1_n_n.contr.Idx) : (Cert.ReferenceIdeal.dot_S100000x64_S64x128_S100000x128_1_0_0_1_n_n.rhsIdx i q 1).val = (i 1).val := by
  unfold DotDims.rhsIdx
  rw [dif_neg (show ¬(1 : Fin Cert.ReferenceIdeal.S64x128.rank) ∈ Cert.ReferenceIdeal.dot_S100000x64_S64x128_S100000x128_1_0_0_1_n_n.rhsBatch by decide), dif_pos (show (1 : Fin Cert.ReferenceIdeal.S64x128.rank) ∈ Cert.ReferenceIdeal.dot_S100000x64_S64x128_S100000x128_1_0_0_1_n_n.rhsNonContracting by decide)]
  rfl

theorem d2_l0 (i : Cert.ReferenceIdeal.S100000x1.Idx) (q : Cert.ReferenceIdeal.dot_S100000x128_S128x1_S100000x1_1_0_0_1_n_n.contr.Idx) : (Cert.ReferenceIdeal.dot_S100000x128_S128x1_S100000x1_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x1_S100000x1_1_0_0_1_n_n.lhsBatch by decide), dif_pos (show (0 : Fin Cert.ReferenceIdeal.S100000x128.rank) ∈ Cert.ReferenceIdeal.dot_S100000x128_S128x1_S100000x1_1_0_0_1_n_n.lhsNonContracting by decide)]
  rfl
theorem d2_l1 (i : Cert.ReferenceIdeal.S100000x1.Idx) (q : Cert.ReferenceIdeal.dot_S100000x128_S128x1_S100000x1_1_0_0_1_n_n.contr.Idx) : (Cert.ReferenceIdeal.dot_S100000x128_S128x1_S100000x1_1_0_0_1_n_n.lhsIdx i q 1).val = (q ⟨0, by decide⟩).val :=
  Cert.ReferenceIdeal.dot_S100000x128_S128x1_S100000x1_1_0_0_1_n_n.lhsIdx_val_of_single rfl i q
theorem d2_r0 (i : Cert.ReferenceIdeal.S100000x1.Idx) (q : Cert.ReferenceIdeal.dot_S100000x128_S128x1_S100000x1_1_0_0_1_n_n.contr.Idx) : (Cert.ReferenceIdeal.dot_S100000x128_S128x1_S100000x1_1_0_0_1_n_n.rhsIdx i q 0).val = (q ⟨0, by decide⟩).val :=
  Cert.ReferenceIdeal.dot_S100000x128_S128x1_S100000x1_1_0_0_1_n_n.rhsIdx_val_of_single rfl i q
theorem d2_r1 (i : Cert.ReferenceIdeal.S100000x1.Idx) (q : Cert.ReferenceIdeal.dot_S100000x128_S128x1_S100000x1_1_0_0_1_n_n.contr.Idx) : (Cert.ReferenceIdeal.dot_S100000x128_S128x1_S100000x1_1_0_0_1_n_n.rhsIdx i q 1).val = (i 1).val := by
  unfold DotDims.rhsIdx
  rw [dif_neg (show ¬(1 : Fin Cert.ReferenceIdeal.S128x1.rank) ∈ Cert.ReferenceIdeal.dot_S100000x128_S128x1_S100000x1_1_0_0_1_n_n.rhsBatch by decide), dif_pos (show (1 : Fin Cert.ReferenceIdeal.S128x1.rank) ∈ Cert.ReferenceIdeal.dot_S100000x128_S128x1_S100000x1_1_0_0_1_n_n.rhsNonContracting by decide)]
  rfl

section
variable (a0 : FVec Ideal ⟨2, ![100000, 64]⟩ .f32) (a1 : IVec ⟨2, ![2, 1600000]⟩ 32) (a2 : FVec Ideal ⟨2, ![64, 128]⟩ .f32)
  (a3 : FVec Ideal ⟨1, ![128]⟩ .f32) (a4 : FVec Ideal ⟨2, ![128, 1]⟩ .f32) (a5 : FVec Ideal ⟨1, ![1]⟩ .f32)

/-- The first layer's table on both sides: |x| W₁. -/
def T1 : (SNC 128).Idx → EReal := Cert.Dense.mm (fun j => max (a0 j) (-(a0 j))) a2

theorem xwR_apply (r : Fin 100000) (k : Fin 128) : Cert.ReferenceIdeal.Whole.xwR a0 a2 (ix2 r k) = T1 a0 a2 (ix2 r k) := by
  unfold Cert.ReferenceIdeal.Whole.xwR
  simp only [Host.dotGeneral]
  exact Cert.Dense.dotGeneral_eq _ rfl rfl d1_l0 d1_l1 d1_r0 d1_r1 none _ _ _ (ix2 r k)

theorem u1K_apply (r : Fin 100000) (k : Fin 128) :
    Cert.KernelIdeal.Whole.u1K a0 a1 a2 (ix2 r k) = T1 a0 a2 (ix2 r k) * Cert.KernelIdeal.Whole.dinvK a1 (ix1 r) := by
  show Cert.Dense.mm (fun j => max (a0 j) (-(a0 j))) a2 (ix2 r k) * Cert.KernelIdeal.Whole.dcolK a1 (ix2 r (0 : Fin 1)) = _
  rw [show Cert.KernelIdeal.Whole.dcolK a1 (ix2 r (0 : Fin 1)) = Cert.KernelIdeal.Whole.dinvK a1 (ix1 r) from shapeCast_a_a1_apply _ _ r 0]
  rfl

theorem hwR_apply (r : Fin 100000) (u : Fin 1) :
    Cert.ReferenceIdeal.Whole.hwR a0 a1 a2 a3 a4 (ix2 r u) = Cert.Dense.mm (Cert.ReferenceIdeal.Whole.hR a0 a1 a2 a3) a4 (ix2 r u) := by
  unfold Cert.ReferenceIdeal.Whole.hwR
  simp only [Host.dotGeneral]
  exact Cert.Dense.dotGeneral_eq _ rfl rfl d2_l0 d2_l1 d2_r0 d2_r1 none _ _ _ (ix2 r u)

theorem u2K_apply (r : Fin 100000) (u : Fin 1) :
    Cert.KernelIdeal.Whole.u2K a0 a1 a2 a3 a4 (ix2 r u) = Cert.Dense.mm (Cert.KernelIdeal.Whole.hK a0 a1 a2 a3) a4 (ix2 r u) * Cert.KernelIdeal.Whole.dinvK a1 (ix1 r) := by
  show Cert.Dense.mm (Cert.KernelIdeal.Whole.hK a0 a1 a2 a3) a4 (ix2 r u) * Cert.KernelIdeal.Whole.dcolK a1 (ix2 r u) = _
  rw [show Cert.KernelIdeal.Whole.dcolK a1 (ix2 r u) = Cert.KernelIdeal.Whole.dinvK a1 (ix1 r) from shapeCast_a_a1_apply _ _ r u]

/-! ## The layer's law over the edges' words -/

theorem dinv_range (n : Fin 100000) : 0 ≤ Cert.KernelIdeal.Whole.dinvK a1 (ix1 n) ∧ Cert.KernelIdeal.Whole.dinvK a1 (ix1 n) ≠ ⊤ :=
  dinvOf_range _ _ _ _ _ n

theorem layer_law {C : Nat} (T : (SNC C).Idx → EReal) (n : Fin 100000) (k : Fin C) :
    (0 + ∑ e : Fin 1700000, if (Cert.KernelIdeal.Whole.colK a1 (ix1 e)).toInt = (n.val : Int)
        then T (ix2 (rowAt (Cert.KernelIdeal.Whole.rowK a1 (ix1 e))) k) * Cert.KernelIdeal.Whole.dinvK a1 (ix1 (rowAt (Cert.KernelIdeal.Whole.rowK a1 (ix1 e)))) else 0) * Cert.KernelIdeal.Whole.dinvK a1 (ix1 n)
      = 0 + ∑ e : Fin 1700000, if (Cert.KernelIdeal.Whole.colK a1 (ix1 e)).toInt = (n.val : Int)
        then (Cert.KernelIdeal.Whole.dinvK a1 (ix1 (rowAt (Cert.KernelIdeal.Whole.rowK a1 (ix1 e)))) * Cert.KernelIdeal.Whole.dinvK a1 (ix1 (rowAt (Cert.KernelIdeal.Whole.colK a1 (ix1 e)))))
          * T (ix2 (rowAt (Cert.KernelIdeal.Whole.rowK a1 (ix1 e))) k) else 0 :=
  Cert.GcnLaw.agg_law (fun e : Fin 1700000 => (Cert.KernelIdeal.Whole.colK a1 (ix1 e)).toInt = (n.val : Int))
    (fun e => T (ix2 (rowAt (Cert.KernelIdeal.Whole.rowK a1 (ix1 e))) k)) (fun e => Cert.KernelIdeal.Whole.dinvK a1 (ix1 (rowAt (Cert.KernelIdeal.Whole.rowK a1 (ix1 e)))))
    (fun e => Cert.KernelIdeal.Whole.dinvK a1 (ix1 (rowAt (Cert.KernelIdeal.Whole.colK a1 (ix1 e))))) (dinv_range a1 n).1 (dinv_range a1 n).2
    (fun e h => by rw [rowAt_of_lands _ n h])

/-! ## The hidden features agree, then the results -/

theorem hidden_eq : Cert.KernelIdeal.Whole.hK a0 a1 a2 a3 = Cert.ReferenceIdeal.Whole.hR a0 a1 a2 a3 := by
  funext i
  obtain ⟨n, k, rfl⟩ : ∃ (n : Fin 100000) (k : Fin 128), i = ix2 n k := ⟨i 0, i 1, eq_ix2 i⟩
  unfold Cert.KernelIdeal.Whole.hK Cert.ReferenceIdeal.Whole.hR Cert.ReferenceIdeal.Whole.pre1R Cert.KernelIdeal.Whole.agg1K
  rw [G1_apply, maximumf_apply, addf_apply', zeros_apply, Ideal.ofBits_zero_f32, biasR_apply, shapeCast_a_1a_apply,
    aggK_apply, aggR128_apply,
    show Cert.KernelIdeal.Whole.dcolK a1 (ix2 n (0 : Fin 1)) = Cert.KernelIdeal.Whole.dinvK a1 (ix1 n) from shapeCast_a_a1_apply _ _ n 0]
  refine congrArg (fun x : EReal => max (x + a3 (ix1 k)) 0) ?_
  simp only [u1K_apply, xwR_apply]
  exact layer_law a1 (T1 a0 a2) n k

theorem out_eq : Cert.KernelIdeal.Whole.outK a0 a1 a2 a3 a4 a5 = Cert.ReferenceIdeal.Whole.outR a0 a1 a2 a3 a4 a5 := by
  funext i
  obtain ⟨n, u, rfl⟩ : ∃ (n : Fin 100000) (u : Fin 1), i = ix2 n u := ⟨i 0, i 1, eq_ix2 i⟩
  unfold Cert.KernelIdeal.Whole.outK Cert.ReferenceIdeal.Whole.outR Cert.ReferenceIdeal.Whole.h2R Cert.ReferenceIdeal.Whole.pre2R Cert.KernelIdeal.Whole.agg2K
  rw [G3_apply, host_logistic_apply, maximumf_apply, addf_apply', ones_apply, zeros_apply, Ideal.ofBits_zero_f32, biasR_apply,
    shapeCast_a_1a_apply, aggK_apply, aggR1_apply,
    show Cert.KernelIdeal.Whole.dcolK a1 (ix2 n u) = Cert.KernelIdeal.Whole.dinvK a1 (ix1 n) from shapeCast_a_a1_apply _ _ n u]
  show Ideal.logistic _ = Ideal.logistic _
  refine congrArg (fun x : EReal => Ideal.logistic (max (x + a5 (ix1 u)) 0)) ?_
  simp only [u2K_apply, hwR_apply, ← hidden_eq]
  exact layer_law a1 (Cert.Dense.mm (Cert.KernelIdeal.Whole.hK a0 a1 a2 a3) a4) n u

end

end Cert.Bridge

end
-- ==== Proof.lean ====
/-
  Two graph-convolution layers over 100000 nodes and 1700000 edges (the given 1600000 and one self loop per node),
  as a pipelined kernel in four regions and as a plain host program, compute the same array over the extended reals.

  With d the inverse root degree of the nodes — the reciprocal square root of the number of edges into a node where
  that number is positive, 0 elsewhere — a layer sends a table T (one row per node) to

      out n = Σ_{e : col e = n} d (row e) · d (col e) · T (row e) + b.

  The host program forms each edge's factor d (row e) · d (col e) and scales the gathered row by it before adding it
  into row col e. The kernel scales T by d row-wise in a first region (together with the product that makes T), lets the
  host gather and add the scaled rows, and scales the sum by d n in a second region (together with the bias and the
  rectifier): d n · Σ_e d (row e) · T (row e). The two agree because d n lies in [0, ⊤) whatever the degree, so it
  distributes over the finite sum even on the extended reals, and because an edge added into row n has col e = n.
  No finiteness of the inputs is used. The first layer's T is |x| W₁ (the kernel's changes of float format around its
  product are the identity here), the second layer's is h W₂ with h the first layer's rectified output, and the final
  logistic of the kernel is by definition the host's 1 / (1 + exp (−·)).

  The frames of the two kernel programs are the generated ones. The reference's frame is its run with the result
  dropped. The idealized kernel's value is read off the run of its ten segments (Proof/KernelRun.lean,
  Proof/KernelValue.lean), the reference's off its line of host operations (Proof/RefValue.lean), and
  Proof/Bridge.lean joins them. The idealization changed no operation, so there is nothing to preserve.
-/
import proofs.«178391_j5583457485492_1_alg».proof.Defs
import proofs.«178391_j5583457485492_1_alg».proof.Proof.Gen.Kernel
import proofs.«178391_j5583457485492_1_alg».proof.Proof.Gen.Kernel.Skeleton
import proofs.«178391_j5583457485492_1_alg».proof.Proof.Gen.Kernel.Launch
import proofs.«178391_j5583457485492_1_alg».proof.Proof.Gen.Kernel.Points
import proofs.«178391_j5583457485492_1_alg».proof.Proof.Gen.Kernel.Frame
import proofs.«178391_j5583457485492_1_alg».proof.Proof.Gen.KernelIdeal
import proofs.«178391_j5583457485492_1_alg».proof.Proof.Gen.KernelIdeal.Skeleton
import proofs.«178391_j5583457485492_1_alg».proof.Proof.Gen.KernelIdeal.Launch
import proofs.«178391_j5583457485492_1_alg».proof.Proof.Gen.KernelIdeal.Points
import proofs.«178391_j5583457485492_1_alg».proof.Proof.Gen.KernelIdeal.Frame
import proofs.«178391_j5583457485492_1_alg».proof.Proof.Gen.ReferenceIdeal
import proofs.«178391_j5583457485492_1_alg».proof.Proof.Gen.Pre_finite_inputs
import proofs.«178391_j5583457485492_1_alg».proof.Proof.Bridge
import Idealize.ShloMosaic.Adequacy
import Idealize.ShloMosaic.Init

noncomputable section

namespace Cert.Proof

open Idealize.ShloMosaic Idealize.SL.Sem

/-- The reference runs and leaves its arguments unchanged: its run, read, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Whole.run m ρ)

/-- From memories agreeing on the arguments both programs run and end with the same result array: the kernel's at
    its composed function of the arguments, the reference's at its own, and the two functions are one. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.KernelIdeal.Whole.run m ρ, ?_⟩
  refine (θ_run Cert.ReferenceIdeal.defs _ _).mono (fun _ h c => ⟨(h c).1.trans ?_, (h c).2⟩) (Cert.ReferenceIdeal.Whole.run m' ρ')
  obtain ⟨e0, e1, e2, e3, e4, e5⟩ := hagree c
  rw [e0, e1, e2, e3, e4, e5]
  exact (Cert.Bridge.out_eq _ _ _ _ _ _).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
